-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S50000x128 .f32) (main_arg1 : IVec S2x800000 32) (main_arg2 : FVec F S128x128 .f32) (main_arg3 : FVec F S128 .f32) (main_arg4 : FVec F S128x128 .f32) (main_arg5 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S5000x128 : Shape := ⟨2, ![5000, 128]⟩
abbrev S850000x128 : Shape := ⟨2, ![850000, 128]⟩
abbrev S1x128 : Shape := ⟨2, ![1, 128]⟩
abbrev S5000 : Shape := ⟨1, ![5000]⟩
abbrev S5000x1 : Shape := ⟨2, ![5000, 1]⟩

abbrev nBuf : Space → Nat
  | .hbm => 86
  | .vmem => 16
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S50000, .f32⟩
  | .hbm, ⟨26, _⟩ => ⟨S_, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S_, .i32⟩
  | .hbm, ⟨31, _⟩ => ⟨S850000, .i32⟩
  | .hbm, ⟨32, _⟩ => ⟨S850000, .i1⟩
  | .hbm, ⟨33, _⟩ => ⟨S_, .i32⟩
  | .hbm, ⟨34, _⟩ => ⟨S850000, .i32⟩
  | .hbm, ⟨35, _⟩ => ⟨S850000, .i32⟩
  | .hbm, ⟨36, _⟩ => ⟨S850000, .i32⟩
  | .hbm, ⟨37, _⟩ => ⟨S850000x1, .i32⟩
  | .hbm, ⟨38, _⟩ => ⟨S850000, .f32⟩
  | .hbm, ⟨39, _⟩ => ⟨S_, .i32⟩
  | .hbm, ⟨40, _⟩ => ⟨S850000, .i32⟩
  | .hbm, ⟨41, _⟩ => ⟨S850000, .i1⟩
  | .hbm, ⟨42, _⟩ => ⟨S_, .i32⟩
  | .hbm, ⟨43, _⟩ => ⟨S850000, .i32⟩
  | .hbm, ⟨44, _⟩ => ⟨S850000, .i32⟩
  | .hbm, ⟨45, _⟩ => ⟨S850000, .i32⟩
  | .hbm, ⟨46, _⟩ => ⟨S850000x1, .i32⟩
  | .hbm, ⟨47, _⟩ => ⟨S850000, .f32⟩
  | .hbm, ⟨48, _⟩ => ⟨S850000, .f32⟩
  | .hbm, ⟨49, _⟩ => ⟨S50000x128, .f32⟩
  | .hbm, ⟨50, _⟩ => ⟨S_, .i32⟩
  | .hbm, ⟨51, _⟩ => ⟨S850000, .i32⟩
  | .hbm, ⟨52, _⟩ => ⟨S850000, .i1⟩
  | .hbm, ⟨53, _⟩ => ⟨S_, .i32⟩
  | .hbm, ⟨54, _⟩ => ⟨S850000, .i32⟩
  | .hbm, ⟨55, _⟩ => ⟨S850000, .i32⟩
  | .hbm, ⟨56, _⟩ => ⟨S850000, .i32⟩
  | .hbm, ⟨57, _⟩ => ⟨S850000x1, .i32⟩
  | .hbm, ⟨58, _⟩ => ⟨S850000x128, .f32⟩
  | .hbm, ⟨59, _⟩ => ⟨S850000x1, .f32⟩
  | .hbm, ⟨60, _⟩ => ⟨S850000x128, .f32⟩
  | .hbm, ⟨61, _⟩ => ⟨S850000x128, .f32⟩
  | .hbm, ⟨62, _⟩ => ⟨S_, .f32⟩
  | .hbm, ⟨63, _⟩ => ⟨S50000x128, .f32⟩
  | .hbm, ⟨64, _⟩ => ⟨S850000x1, .i32⟩
  | .hbm, ⟨65, _⟩ => ⟨S50000x128, .f32⟩
  | .hbm, ⟨66, _⟩ => ⟨S1x128, .f32⟩
  | .hbm, ⟨67, _⟩ => ⟨S50000x128, .f32⟩
  | .hbm, ⟨68, _⟩ => ⟨S_, .i32⟩
  | .hbm, ⟨69, _⟩ => ⟨S850000, .i32⟩
  | .hbm, ⟨70, _⟩ => ⟨S850000, .i1⟩
  | .hbm, ⟨71, _⟩ => ⟨S_, .i32⟩
  | .hbm, ⟨72, _⟩ => ⟨S850000, .i32⟩
  | .hbm, ⟨73, _⟩ => ⟨S850000, .i32⟩
  | .hbm, ⟨74, _⟩ => ⟨S850000, .i32⟩
  | .hbm, ⟨75, _⟩ => ⟨S850000x1, .i32⟩
  | .hbm, ⟨76, _⟩ => ⟨S850000x128, .f32⟩
  | .hbm, ⟨77, _⟩ => ⟨S850000x1, .f32⟩
  | .hbm, ⟨78, _⟩ => ⟨S850000x128, .f32⟩
  | .hbm, ⟨79, _⟩ => ⟨S850000x128, .f32⟩
  | .hbm, ⟨80, _⟩ => ⟨S_, .f32⟩
  | .hbm, ⟨81, _⟩ => ⟨S50000x128, .f32⟩
  | .hbm, ⟨82, _⟩ => ⟨S850000x1, .i32⟩
  | .hbm, ⟨83, _⟩ => ⟨S50000x128, .f32⟩
  | .hbm, ⟨84, _⟩ => ⟨S1x128, .f32⟩
  | .hbm, ⟨85, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S128x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S1x128, .f32⟩
  | .local _ .vmem, ⟨14, _⟩ => ⟨S5000x128, .f32⟩
  | .local _ .vmem, ⟨15, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_c_10 : Ref sig .tc := ⟨.hbm, 68, rfl⟩
abbrev main_v48 : Ref sig .tc := ⟨.hbm, 69, rfl⟩
abbrev main_v49 : Ref sig .tc := ⟨.hbm, 70, rfl⟩
abbrev main_c_11 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_12 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  reduces_S5000x128_S5000 : S5000x128.Reduces [1] S5000
  shapeCasts_S5000_S5000x1 : S5000.ShapeCasts S5000x1
  broadcasts_S5000x1_S5000x128 : S5000x1.Broadcasts S5000x128
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x128_S128x128_S5000x128_1_0_0_1_n_n_wf : DotDims.WF S5000x128 S128x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S50000x128.size a
  hwx1_3 : ∀ i : grid1.Coords, EltTy.bits .f32 = 32 ∨ (Rect.block (s := S50000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v47) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v60) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v61) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v62) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S50000x1 : Shape := ⟨2, ![50000, 1]⟩

abbrev nBuf : Space → Nat
  | .hbm => 143
  | .vmem => 0
  | .smem => 0
  | _ => 0

abbrev hbmTy0_0 (i : Nat) : BufTy := match i % 128 with
  | 0 => ⟨S50000x128, .f32⟩
  | 1 => ⟨S2x800000, .i32⟩
  | 2 => ⟨S128x128, .f32⟩
  | 3 => ⟨S128, .f32⟩
  | 4 => ⟨S128x128, .f32⟩
  | 5 => ⟨S128, .f32⟩
  | 6 => ⟨S50000, .i32⟩
  | 7 => ⟨S1x800000, .i32⟩
  | 8 => ⟨S800000, .i32⟩
  | 9 => ⟨S850000, .i32⟩
  | 10 => ⟨S1x800000, .i32⟩
  | 11 => ⟨S800000, .i32⟩
  | 12 => ⟨S850000, .i32⟩
  | 13 => ⟨S50000x128, .f32⟩
  | 14 => ⟨S_, .f32⟩
  | 15 => ⟨S850000, .f32⟩
  | 16 => ⟨S_, .f32⟩
  | 17 => ⟨S50000, .f32⟩
  | 18 => ⟨S850000x1, .i32⟩
  | 19 => ⟨S50000, .f32⟩
  | 20 => ⟨S_, .f32⟩
  | 21 => ⟨S50000, .f32⟩
  | 22 => ⟨S50000, .i1⟩
  | 23 => ⟨S_, .f32⟩
  | 24 => ⟨S50000, .f32⟩
  | 25 => ⟨S50000, .f32⟩
  | 26 => ⟨S50000, .f32⟩
  | 27 => ⟨S_, .f32⟩
  | 28 => ⟨S_, .f32⟩
  | 29 => ⟨S50000, .f32⟩
  | 30 => ⟨S50000, .f32⟩
  | 31 => ⟨S_, .i32⟩
  | 32 => ⟨S850000, .i32⟩
  | 33 => ⟨S850000, .i1⟩
  | 34 => ⟨S_, .i32⟩
  | 35 => ⟨S850000, .i32⟩
  | 36 => ⟨S850000, .i32⟩
  | 37 => ⟨S850000, .i32⟩
  | 38 => ⟨S850000x1, .i32⟩
  | 39 => ⟨S850000, .f32⟩
  | 40 => ⟨S_, .i32⟩
  | 41 => ⟨S850000, .i32⟩
  | 42 => ⟨S850000, .i1⟩
  | 43 => ⟨S_, .i32⟩
  | 44 => ⟨S850000, .i32⟩
  | 45 => ⟨S850000, .i32⟩
  | 46 => ⟨S850000, .i32⟩
  | 47 => ⟨S850000x1, .i32⟩
  | 48 => ⟨S850000, .f32⟩
  | 49 => ⟨S850000, .f32⟩
  | 50 => ⟨S_, .i32⟩
  | 51 => ⟨S850000, .i32⟩
  | 52 => ⟨S850000, .i1⟩
  | 53 => ⟨S_, .i32⟩
  | 54 => ⟨S850000, .i32⟩
  | 55 => ⟨S850000, .i32⟩
  | 56 => ⟨S850000, .i32⟩
  | 57 => ⟨S850000x1, .i32⟩
  | 58 => ⟨S850000x128, .f32⟩
  | 59 => ⟨S850000x1, .f32⟩
  | 60 => ⟨S850000x128, .f32⟩
  | 61 => ⟨S850000x128, .f32⟩
  | 62 => ⟨S_, .f32⟩
  | 63 => ⟨S50000x128, .f32⟩
  | 64 => ⟨S850000x1, .i32⟩
  | 65 => ⟨S50000x128, .f32⟩
  | 66 => ⟨S1x128, .f32⟩
  | 67 => ⟨S50000x128, .f32⟩
  | 68 => ⟨S50000x128, .f32⟩
  | 69 => ⟨S_, .f32⟩
  | 70 => ⟨S50000x128, .f32⟩
  | 71 => ⟨S50000x128, .f32⟩
  | 72 => ⟨S50000x128, .f32⟩
  | 73 => ⟨S_, .f32⟩
  | 74 => ⟨S850000, .f32⟩
  | 75 => ⟨S_, .f32⟩
  | 76 => ⟨S50000, .f32⟩
  | 77 => ⟨S850000x1, .i32⟩
  | 78 => ⟨S50000, .f32⟩
  | 79 => ⟨S_, .f32⟩
  | 80 => ⟨S50000, .f32⟩
  | 81 => ⟨S50000, .i1⟩
  | 82 => ⟨S_, .f32⟩
  | 83 => ⟨S50000, .f32⟩
  | 84 => ⟨S50000, .f32⟩
  | 85 => ⟨S50000, .f32⟩
  | 86 => ⟨S_, .f32⟩
  | 87 => ⟨S_, .f32⟩
  | 88 => ⟨S50000, .f32⟩
  | 89 => ⟨S50000, .f32⟩
  | 90 => ⟨S_, .i32⟩
  | 91 => ⟨S850000, .i32⟩
  | 92 => ⟨S850000, .i1⟩
  | 93 => ⟨S_, .i32⟩
  | 94 => ⟨S850000, .i32⟩
  | 95 => ⟨S850000, .i32⟩
  | 96 => ⟨S850000, .i32⟩
  | 97 => ⟨S850000x1, .i32⟩
  | 98 => ⟨S850000, .f32⟩
  | 99 => ⟨S_, .i32⟩
  | 100 => ⟨S850000, .i32⟩
  | 101 => ⟨S850000, .i1⟩
  | 102 => ⟨S_, .i32⟩
  | 103 => ⟨S850000, .i32⟩
  | 104 => ⟨S850000, .i32⟩
  | 105 => ⟨S850000, .i32⟩
  | 106 => ⟨S850000x1, .i32⟩
  | 107 => ⟨S850000, .f32⟩
  | 108 => ⟨S850000, .f32⟩
  | 109 => ⟨S_, .i32⟩
  | 110 => ⟨S850000, .i32⟩
  | 111 => ⟨S850000, .i1⟩
  | 112 => ⟨S_, .i32⟩
  | 113 => ⟨S850000, .i32⟩
  | 114 => ⟨S850000, .i32⟩
  | 115 => ⟨S850000, .i32⟩
  | 116 => ⟨S850000x1, .i32⟩
  | 117 => ⟨S850000x128, .f32⟩
  | 118 => ⟨S850000x1, .f32⟩
  | 119 => ⟨S850000x128, .f32⟩
  | 120 => ⟨S850000x128, .f32⟩
  | 121 => ⟨S_, .f32⟩
  | 122 => ⟨S50000x128, .f32⟩
  | 123 => ⟨S850000x1, .i32⟩
  | 124 => ⟨S50000x128, .f32⟩
  | 125 => ⟨S1x128, .f32⟩
  | 126 => ⟨S50000x128, .f32⟩
  | 127 => ⟨S50000x128, .f32⟩
  | _ => ⟨S50000x128, .f32⟩

abbrev hbmTy0_1 (i : Nat) : BufTy := match i % 128 with
  | 0 => ⟨S_, .f32⟩
  | 1 => ⟨S50000, .f32⟩
  | 2 => ⟨S_, .f32⟩
  | 3 => ⟨S50000, .f32⟩
  | 4 => ⟨S50000, .f32⟩
  | 5 => ⟨S50000x1, .f32⟩
  | 6 => ⟨S50000x128, .f32⟩
  | 7 => ⟨S50000x128, .f32⟩
  | 8 => ⟨S50000x128, .f32⟩
  | 9 => ⟨S_, .f32⟩
  | 10 => ⟨S50000, .f32⟩
  | 11 => ⟨S50000x1, .f32⟩
  | 12 => ⟨S50000x1, .f32⟩
  | 13 => ⟨S50000x128, .f32⟩
  | 14 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_call0_v0 : Ref sig .tc := ⟨.hbm, 28, rfl⟩
abbrev main_call0_v1 : Ref sig .tc := ⟨.hbm, 29, rfl⟩
abbrev main_v17 : Ref sig .tc := ⟨.hbm, 30, rfl⟩
abbrev main_c : Ref sig .tc := ⟨.hbm, 31, rfl⟩
abbrev main_v18 : Ref sig .tc := ⟨.hbm, 32, rfl⟩
abbrev main_v19 : Ref sig .tc := ⟨.hbm, 33, rfl⟩
abbrev main_c_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_c_6 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_v50 : Ref sig .tc := ⟨.hbm, 72, rfl⟩
abbrev main_cst_10 : Ref sig .tc := ⟨.hbm, 73, rfl⟩
abbrev main_v51 : Ref sig .tc := ⟨.hbm, 74, rfl⟩
abbrev main_cst_11 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_cst_12 : Ref sig .tc := ⟨.hbm, 79, rfl⟩
abbrev main_v55 : Ref sig .tc := ⟨.hbm, 80, rfl⟩
abbrev main_v56 : Ref sig .tc := ⟨.hbm, 81, rfl⟩
abbrev main_cst_13 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_cst_14 : Ref sig .tc := ⟨.hbm, 86, rfl⟩
abbrev main_call2_v0 : Ref sig .tc := ⟨.hbm, 87, rfl⟩
abbrev main_call2_v1 : Ref sig .tc := ⟨.hbm, 88, rfl⟩
abbrev main_v60 : Ref sig .tc := ⟨.hbm, 89, rfl⟩
abbrev main_c_15 : Ref sig .tc := ⟨.hbm, 90, rfl⟩
abbrev main_v61 : Ref sig .tc := ⟨.hbm, 91, rfl⟩
abbrev main_v62 : Ref sig .tc := ⟨.hbm, 92, rfl⟩
abbrev main_c_16 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_c_17 : Ref sig .tc := ⟨.hbm, 99, rfl⟩
abbrev main_v68 : Ref sig .tc := ⟨.hbm, 100, rfl⟩
abbrev main_v69 : Ref sig .tc := ⟨.hbm, 101, rfl⟩
abbrev main_c_18 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_c_19 : Ref sig .tc := ⟨.hbm, 109, rfl⟩
abbrev main_v76 : Ref sig .tc := ⟨.hbm, 110, rfl⟩
abbrev main_v77 : Ref sig .tc := ⟨.hbm, 111, rfl⟩
abbrev main_c_20 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_cst_21 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_call3_cst : Ref sig .tc := ⟨.hbm, 128, rfl⟩
abbrev main_call3_v0 : Ref sig .tc := ⟨.hbm, 129, rfl⟩
abbrev main_call3_cst_0 : Ref sig .tc := ⟨.hbm, 130, rfl⟩
abbrev main_call3_v1 : Ref sig .tc := ⟨.hbm, 131, rfl⟩
abbrev main_call3_v2 : Ref sig .tc := ⟨.hbm, 132, rfl⟩
abbrev main_call3_v3 : Ref sig .tc := ⟨.hbm, 133, rfl⟩
abbrev main_call3_v4 : Ref sig .tc := ⟨.hbm, 134, rfl⟩
abbrev main_call3_v5 : Ref sig .tc := ⟨.hbm, 135, rfl⟩
abbrev main_call3_v6 : Ref sig .tc := ⟨.hbm, 136, rfl⟩
abbrev main_call3_cst_1 : Ref sig .tc := ⟨.hbm, 137, rfl⟩
abbrev main_call3_v7 : Ref sig .tc := ⟨.hbm, 138, rfl⟩
abbrev main_call3_v8 : Ref sig .tc := ⟨.hbm, 139, rfl⟩
abbrev main_call3_v9 : Ref sig .tc := ⟨.hbm, 140, rfl⟩
abbrev main_call3_v10 : Ref sig .tc := ⟨.hbm, 141, rfl⟩
abbrev main_v92 : Ref sig .tc := ⟨.hbm, 142, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S50000_d1 : S50000x128.ReducesTo [1] S50000
  h_S_ : 0 < S_.numel
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  dot_S50000x128_S128x128_S50000x128_1_0_0_1_n_n_wf : DotDims.WF S50000x128 S128x128 S50000x128 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

class Facts : Prop extends Facts₀ where

variable [Facts]
-- ==== Proof.KernelRun.lean ====
/-
  The three-launch program's run with its result named.

  Between the launch memory and the return the program is a chain of host stretches and three pipelined launches;
  the contents of every unscoped buffer at each boundary is a fold from the launch memory: a stretch applies its
  operations, a launch leaves its arrays at what its write-backs leave and every other buffer as it found it. The last
  boundary's contents are what every fair execution ends with. Read at the six argument buffers the fold walks back to
  the launch memory; read at the result's buffer it is the last launch's output array after all of its write-backs.
  This module states the run with BOTH readings in its post, so that the value of the result can be computed from the
  fold.
-/
import proofs.«105155_j75814762709760_2_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates without a fault; the result's buffer ends at the last boundary's contents
    there, and the six argument arrays end as launched. -/
theorem run_result : θ_run defs (onTc (τ := τ) (main (F := F))) ⟨m, fun _ => 0, ρ⟩ (fun r => ∀ c : Dev nD,
      r.2.mem ((c.tc : Thread nD τ).loc main_v62) = W8 m ρ c (Proc.devRef .tc main_v62)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v62 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c)⟩)

end Cert.KernelIdeal.Run

end
-- ==== Proof.Fold.lean ====
/-
  The contents of the buffers between the three launches, read from the launch memory.

  The program is a two-layer graph convolution. Its edge list (two rows of 800000 endpoints) is extended by one
  self-loop per node: `sources` and `targets` are the two rows, each followed by 0, 1, …, 49999. A node's `degree`
  is the number of extended edges arriving at it (a scatter-add of ones), its inverse square root where the degree is
  positive (and 0 elsewhere) is `invSqrtDegree`, and an edge's weight is the product of that quantity at its two
  endpoints (`edgeWeight`; endpoints are read with the usual wrap of negative indices, `wrapped`). One propagation
  step, `aggregate`, gathers the rows of a [50000,128] array at the sources, scales each by its edge's weight and
  scatter-adds the scaled rows at the targets.

  None of these functions is ever opened here: the host stretches of the program compute exactly these terms, and the
  statement below only says WHICH composition of them, of the three launches' dense stages P, R, S and of the launch
  memory the result array is:
      S (aggregate (R (aggregate (P x w₁)) b₁ w₂)) b₂ .
  The three dense stages enter as hypotheses about the launches' output arrays at arbitrary entry contents.
-/
import proofs.«105155_j75814762709760_2_alg».proof.Proof.Gen.KernelIdeal.Frame
import Idealize.ShloMosaic.Lib.StableHlo.Run
import Idealize.ShloMosaic.PureOps.Ideal

set_option maxRecDepth 16384

noncomputable section

namespace Cert.KernelIdeal.Fold

open Cert.KernelIdeal Cert.KernelIdeal.Gen
open Idealize.ShloMosaic Idealize.ShloMosaic.TcCoe Idealize.SL.Sem Idealize.ShloMosaic.StableHlo

abbrev Arr := FVec Ideal S50000x128 .f32
abbrev Mat := FVec Ideal S128x128 .f32
abbrev Bias := FVec Ideal S128 .f32
abbrev Edges := (⟨S2x800000, .i32⟩ : BufTy).Contents (Elt Ideal)
abbrev Ends := (⟨S850000, .i32⟩ : BufTy).Contents (Elt Ideal)
abbrev PerEdge := FVec Ideal S850000 .f32
abbrev PerNode := FVec Ideal S50000 .f32

/-! ## The aggregation's pieces, as the host stretches spell them -/

/-- Row 0 of the edge list, then one self-loop per node. -/
def sources (e : Edges) : Ends :=
  concatenate S850000 0 [⟨S800000, shapeCast _ (extractStridedSlice S1x800000 ![0, 0] e Facts₀.slices_S2x800000_S1x800000_0_0) Facts₀.shapeCasts_S1x800000_S800000⟩, ⟨S50000, iotaInDim S50000 32 0⟩] Facts₀.concatenates_S800000_S50000_S850000_d0

/-- Row 1 of the edge list, then one self-loop per node. -/
def targets (e : Edges) : Ends :=
  concatenate S850000 0 [⟨S800000, shapeCast _ (extractStridedSlice S1x800000 ![1, 0] e Facts₀.slices_S2x800000_S1x800000_1_0) Facts₀.shapeCasts_S1x800000_S800000⟩, ⟨S50000, iotaInDim S50000 32 0⟩] Facts₀.concatenates_S800000_S50000_S850000_d0

/-- How many extended edges arrive at each node. -/
def degree (dst : Ends) : PerNode :=
  Host.scatterAdd scatter_S50000_S850000x1_S850000_n_0_0_1
    (broadcastInDim S50000 ![] Facts₀.bcast_S_S50000 (constant (F := Ideal) S_ .f32 0x00000000#32))
    (broadcastInDim S850000x1 ![0] Facts₀.bcast_S850000_S850000x1_0 dst)
    (broadcastInDim S850000 ![] Facts₀.bcast_S_S850000 (constant (F := Ideal) S_ .f32 0x3F800000#32))

/-- Is the degree positive. -/
def positive (dst : Ends) : (⟨S50000, .i1⟩ : BufTy).Contents (Elt Ideal) :=
  cmpf (F := Ideal) .ogt (degree dst) (broadcastInDim S50000 ![] Facts₀.bcast_S_S50000 (constant (F := Ideal) S_ .f32 0x00000000#32))

/-- The inverse square root of the degree kept away from zero. -/
def guardedInvSqrt (dst : Ends) : PerNode :=
  Host.rsqrt (maximumf (degree dst) (broadcastInDim S50000 ![] Facts₀.bcast_S_S50000 (constant (F := Ideal) S_ .f32 0x2B8CBCCC#32)))

/-- 1/√degree where the degree is positive, 0 elsewhere. -/
def invSqrtDegree (dst : Ends) : PerNode :=
  select (positive dst) (guardedInvSqrt dst) (broadcastInDim S50000 ![] Facts₀.bcast_S_S50000 (id (constant (F := Ideal) S_ .f32 0x00000000#32)))

/-- A negative endpoint counts from the end. -/
def wrapped (v : Ends) : Ends :=
  select (cmpi .slt v (broadcastInDim S850000 ![] Facts₀.bcast_S_S850000 (constantI S_ 32 0#32)))
    (addi v (broadcastInDim S850000 ![] Facts₀.bcast_S_S850000 (constantI S_ 32 50000#32))) v

/-- An edge's weight: the product of `d` at its two endpoints. -/
def weightFrom (d : PerNode) (src dst : Ends) : PerEdge :=
  mulf (Host.gather gather_S50000_S850000x1_S850000_n_0_n_n_0_1_1 d (broadcastInDim S850000x1 ![0] Facts₀.bcast_S850000_S850000x1_0 (wrapped src)))
    (Host.gather gather_S50000_S850000x1_S850000_n_0_n_n_0_1_1 d (broadcastInDim S850000x1 ![0] Facts₀.bcast_S850000_S850000x1_0 (wrapped dst)))

/-- The symmetric normalisation's weight of every extended edge. -/
def edgeWeight (e : Edges) : PerEdge := weightFrom (invSqrtDegree (targets e)) (sources e) (targets e)

/-- One propagation step: gather the rows at the sources, scale by the edges' weights, add up at the targets. -/
def aggregate (src dst : Ends) (wt : PerEdge) (h : Arr) : Arr :=
  Host.scatterAdd scatter_S50000x128_S850000x1_S850000x128_1_0_0_1
    (broadcastInDim S50000x128 ![] Facts₀.bcast_S_S50000x128 (constant (F := Ideal) S_ .f32 0x00000000#32))
    (broadcastInDim S850000x1 ![0] Facts₀.bcast_S850000_S850000x1_0 dst)
    (mulf (Host.gather gather_S50000x128_S850000x1_S850000x128_1_0_n_n_0_1_1128 h (broadcastInDim S850000x1 ![0] Facts₀.bcast_S850000_S850000x1_0 (wrapped src)))
      (broadcastInDim S850000x128 ![0, 1] Facts₀.bcast_S850000x1_S850000x128_0_1 (broadcastInDim S850000x1 ![0] Facts₀.bcast_S850000_S850000x1_0 wt)))

/-- The propagation step of this graph. -/
def propagate (e : Edges) (h : Arr) : Arr := aggregate (sources e) (targets e) (edgeWeight e) h

variable (m : (ℓ : Loc nD τ sig) → Buf (Elt Ideal) ℓ) (ρ : Dev nD → PrngReg)

/-! ## After the first stretch -/

section Stretch0
variable (W : Valuation τ sig (Elt Ideal))
theorem s0_src : StableHlo.after hostOps0 W (Proc.devRef .tc main_v3) = sources (W (Proc.devRef .tc main_arg1)) := by after_results; rfl
theorem s0_dst : StableHlo.after hostOps0 W (Proc.devRef .tc main_v6) = targets (W (Proc.devRef .tc main_arg1)) := by after_results; rfl
theorem s0_pos : StableHlo.after hostOps0 W (Proc.devRef .tc main_v12) = positive (targets (W (Proc.devRef .tc main_arg1))) := by after_results; rfl
theorem s0_inv : StableHlo.after hostOps0 W (Proc.devRef .tc main_v15) = guardedInvSqrt (targets (W (Proc.devRef .tc main_arg1))) := by after_results; rfl
theorem s0_zero : StableHlo.after hostOps0 W (Proc.devRef .tc main_cst_3) = constant (F := Ideal) S_ .f32 0x00000000#32 := by after_results
theorem s0_arg0 : StableHlo.after hostOps0 W (Proc.devRef .tc main_arg0) = W (Proc.devRef .tc main_arg0) := by after_results
theorem s0_arg2 : StableHlo.after hostOps0 W (Proc.devRef .tc main_arg2) = W (Proc.devRef .tc main_arg2) := by after_results
theorem s0_arg3 : StableHlo.after hostOps0 W (Proc.devRef .tc main_arg3) = W (Proc.devRef .tc main_arg3) := by after_results
theorem s0_arg4 : StableHlo.after hostOps0 W (Proc.devRef .tc main_arg4) = W (Proc.devRef .tc main_arg4) := by after_results
theorem s0_arg5 : StableHlo.after hostOps0 W (Proc.devRef .tc main_arg5) = W (Proc.devRef .tc main_arg5) := by after_results
end Stretch0

/-! ## After the selection of the inverse square roots -/

section Stretch1
variable (W : Valuation τ sig (Elt Ideal))
theorem s1_dinv : StableHlo.after hostOps0_1 W (Proc.devRef .tc main_v16)
    = select (W (Proc.devRef .tc main_v12)) (W (Proc.devRef .tc main_v15)) (broadcastInDim S50000 ![] Facts₀.bcast_S_S50000 (id (W (Proc.devRef .tc main_cst_3)))) := by after_results; rfl
theorem s1_src : StableHlo.after hostOps0_1 W (Proc.devRef .tc main_v3) = W (Proc.devRef .tc main_v3) := by after_results
theorem s1_dst : StableHlo.after hostOps0_1 W (Proc.devRef .tc main_v6) = W (Proc.devRef .tc main_v6) := by after_results
theorem s1_arg0 : StableHlo.after hostOps0_1 W (Proc.devRef .tc main_arg0) = W (Proc.devRef .tc main_arg0) := by after_results
theorem s1_arg2 : StableHlo.after hostOps0_1 W (Proc.devRef .tc main_arg2) = W (Proc.devRef .tc main_arg2) := by after_results
theorem s1_arg3 : StableHlo.after hostOps0_1 W (Proc.devRef .tc main_arg3) = W (Proc.devRef .tc main_arg3) := by after_results
theorem s1_arg4 : StableHlo.after hostOps0_1 W (Proc.devRef .tc main_arg4) = W (Proc.devRef .tc main_arg4) := by after_results
theorem s1_arg5 : StableHlo.after hostOps0_1 W (Proc.devRef .tc main_arg5) = W (Proc.devRef .tc main_arg5) := by after_results
end Stretch1

/-! ## After the edges' weights -/

section Stretch2
variable (W : Valuation τ sig (Elt Ideal))
set_option maxHeartbeats 4000000 in
theorem s2_wt : StableHlo.after hostOps0_2 W (Proc.devRef .tc main_v31)
    = weightFrom (W (Proc.devRef .tc main_v16)) (W (Proc.devRef .tc main_v3)) (W (Proc.devRef .tc main_v6)) := by after_results_simp; rfl
theorem s2_src : StableHlo.after hostOps0_2 W (Proc.devRef .tc main_v3) = W (Proc.devRef .tc main_v3) := by after_results
theorem s2_dst : StableHlo.after hostOps0_2 W (Proc.devRef .tc main_v6) = W (Proc.devRef .tc main_v6) := by after_results
theorem s2_arg0 : StableHlo.after hostOps0_2 W (Proc.devRef .tc main_arg0) = W (Proc.devRef .tc main_arg0) := by after_results
theorem s2_arg2 : StableHlo.after hostOps0_2 W (Proc.devRef .tc main_arg2) = W (Proc.devRef .tc main_arg2) := by after_results
theorem s2_arg3 : StableHlo.after hostOps0_2 W (Proc.devRef .tc main_arg3) = W (Proc.devRef .tc main_arg3) := by after_results
theorem s2_arg4 : StableHlo.after hostOps0_2 W (Proc.devRef .tc main_arg4) = W (Proc.devRef .tc main_arg4) := by after_results
theorem s2_arg5 : StableHlo.after hostOps0_2 W (Proc.devRef .tc main_arg5) = W (Proc.devRef .tc main_arg5) := by after_results
end Stretch2

/-! ## Between the first and the second launch -/

section Stretch3
variable (W : Valuation τ sig (Elt Ideal))
set_option maxHeartbeats 4000000 in
theorem s3_agg : StableHlo.after hostOps1 W (Proc.devRef .tc main_v45)
    = aggregate (W (Proc.devRef .tc main_v3)) (W (Proc.devRef .tc main_v6)) (W (Proc.devRef .tc main_v31)) (W (Proc.devRef .tc main_v32)) := by after_results_simp; rfl
theorem s3_bias : StableHlo.after hostOps1 W (Proc.devRef .tc main_v46) = shapeCast _ (W (Proc.devRef .tc main_arg3)) Facts₀.shapeCasts_S128_S1x128 := by after_results; rfl
theorem s3_src : StableHlo.after hostOps1 W (Proc.devRef .tc main_v3) = W (Proc.devRef .tc main_v3) := by after_results
theorem s3_dst : StableHlo.after hostOps1 W (Proc.devRef .tc main_v6) = W (Proc.devRef .tc main_v6) := by after_results
theorem s3_wt : StableHlo.after hostOps1 W (Proc.devRef .tc main_v31) = W (Proc.devRef .tc main_v31) := by after_results
theorem s3_arg4 : StableHlo.after hostOps1 W (Proc.devRef .tc main_arg4) = W (Proc.devRef .tc main_arg4) := by after_results
theorem s3_arg5 : StableHlo.after hostOps1 W (Proc.devRef .tc main_arg5) = W (Proc.devRef .tc main_arg5) := by after_results
end Stretch3

/-! ## Between the second and the third launch -/

section Stretch4
variable (W : Valuation τ sig (Elt Ideal))
set_option maxHeartbeats 4000000 in
theorem s4_agg : StableHlo.after hostOps2 W (Proc.devRef .tc main_v60)
    = aggregate (W (Proc.devRef .tc main_v3)) (W (Proc.devRef .tc main_v6)) (W (Proc.devRef .tc main_v31)) (W (Proc.devRef .tc main_v47)) := by after_results_simp; rfl
theorem s4_bias : StableHlo.after hostOps2 W (Proc.devRef .tc main_v61) = shapeCast _ (W (Proc.devRef .tc main_arg5)) Facts₀.shapeCasts_S128_S1x128 := by after_results; rfl
end Stretch4

/-! ## The composition

    Every boundary's contents at the buffers read later, walked from the launch memory: a stretch by its readings above,
    a launch by its two facts (its arrays end at what the write-backs leave, every other buffer as it was). -/

section Composition

variable (P : Arr → Mat → Arr) (R : Arr → Bias → Mat → Arr) (S : Arr → Bias → Arr)

/-- The result array, as a composition of the launches' dense stages and the propagation step. -/
theorem result_eq
    (hP : ∀ (V : (c : Dev nD) → (b : Ref sig .tc) → Buf (Elt Ideal) ((c : Thread nD τ).loc b)) (c : Dev nD),
      (dat0 (F := Ideal) V c).arrAt 2 cfg0.N = P (V c main_arg0) (V c main_arg2))
    (hR : ∀ (V : (c : Dev nD) → (b : Ref sig .tc) → Buf (Elt Ideal) ((c : Thread nD τ).loc b)) (c : Dev nD) (b : Bias),
      V c main_v46 = shapeCast _ b Facts₀.shapeCasts_S128_S1x128 →
      (dat1 (F := Ideal) V c).arrAt 3 cfg1.N = R (V c main_v45) b (V c main_arg4))
    (hS : ∀ (V : (c : Dev nD) → (b : Ref sig .tc) → Buf (Elt Ideal) ((c : Thread nD τ).loc b)) (c : Dev nD) (b : Bias),
      V c main_v61 = shapeCast _ b Facts₀.shapeCasts_S128_S1x128 →
      (dat2 (F := Ideal) V c).arrAt 2 cfg2.N = S (V c main_v60) b)
    (c : Dev nD) :
    W8 m ρ c (Proc.devRef .tc main_v62)
      = S (propagate (m ((c : Thread nD τ).loc main_arg1))
            (R (propagate (m ((c : Thread nD τ).loc main_arg1)) (P (m ((c : Thread nD τ).loc main_arg0)) (m ((c : Thread nD τ).loc main_arg2))))
              (m ((c : Thread nD τ).loc main_arg3)) (m ((c : Thread nD τ).loc main_arg4))))
          (m ((c : Thread nD τ).loc main_arg5)) := by
  -- after the first stretch
  have a1_src : W1 m ρ c (Proc.devRef .tc main_v3) = sources (m ((c : Thread nD τ).loc main_arg1)) := s0_src (W0 m ρ c)
  have a1_dst : W1 m ρ c (Proc.devRef .tc main_v6) = targets (m ((c : Thread nD τ).loc main_arg1)) := s0_dst (W0 m ρ c)
  have a1_pos : W1 m ρ c (Proc.devRef .tc main_v12) = positive (targets (m ((c : Thread nD τ).loc main_arg1))) := s0_pos (W0 m ρ c)
  have a1_inv : W1 m ρ c (Proc.devRef .tc main_v15) = guardedInvSqrt (targets (m ((c : Thread nD τ).loc main_arg1))) := s0_inv (W0 m ρ c)
  have a1_zero : W1 m ρ c (Proc.devRef .tc main_cst_3) = constant (F := Ideal) S_ .f32 0x00000000#32 := s0_zero (W0 m ρ c)
  have a1_arg0 : W1 m ρ c (Proc.devRef .tc main_arg0) = m ((c : Thread nD τ).loc main_arg0) := s0_arg0 (W0 m ρ c)
  have a1_arg2 : W1 m ρ c (Proc.devRef .tc main_arg2) = m ((c : Thread nD τ).loc main_arg2) := s0_arg2 (W0 m ρ c)
  have a1_arg3 : W1 m ρ c (Proc.devRef .tc main_arg3) = m ((c : Thread nD τ).loc main_arg3) := s0_arg3 (W0 m ρ c)
  have a1_arg4 : W1 m ρ c (Proc.devRef .tc main_arg4) = m ((c : Thread nD τ).loc main_arg4) := s0_arg4 (W0 m ρ c)
  have a1_arg5 : W1 m ρ c (Proc.devRef .tc main_arg5) = m ((c : Thread nD τ).loc main_arg5) := s0_arg5 (W0 m ρ c)
  -- after the selection
  have a2_dinv : W2 m ρ c (Proc.devRef .tc main_v16) = invSqrtDegree (targets (m ((c : Thread nD τ).loc main_arg1))) :=
    (s1_dinv (W1 m ρ c)).trans (by rw [a1_pos, a1_inv, a1_zero]; rfl)
  have a2_src : W2 m ρ c (Proc.devRef .tc main_v3) = sources (m ((c : Thread nD τ).loc main_arg1)) := (s1_src (W1 m ρ c)).trans a1_src
  have a2_dst : W2 m ρ c (Proc.devRef .tc main_v6) = targets (m ((c : Thread nD τ).loc main_arg1)) := (s1_dst (W1 m ρ c)).trans a1_dst
  have a2_arg0 : W2 m ρ c (Proc.devRef .tc main_arg0) = m ((c : Thread nD τ).loc main_arg0) := (s1_arg0 (W1 m ρ c)).trans a1_arg0
  have a2_arg2 : W2 m ρ c (Proc.devRef .tc main_arg2) = m ((c : Thread nD τ).loc main_arg2) := (s1_arg2 (W1 m ρ c)).trans a1_arg2
  have a2_arg3 : W2 m ρ c (Proc.devRef .tc main_arg3) = m ((c : Thread nD τ).loc main_arg3) := (s1_arg3 (W1 m ρ c)).trans a1_arg3
  have a2_arg4 : W2 m ρ c (Proc.devRef .tc main_arg4) = m ((c : Thread nD τ).loc main_arg4) := (s1_arg4 (W1 m ρ c)).trans a1_arg4
  have a2_arg5 : W2 m ρ c (Proc.devRef .tc main_arg5) = m ((c : Thread nD τ).loc main_arg5) := (s1_arg5 (W1 m ρ c)).trans a1_arg5
  -- after the edges' weights: the first launch's entry
  have a3_wt : W3 m ρ c (Proc.devRef .tc main_v31) = edgeWeight (m ((c : Thread nD τ).loc main_arg1)) :=
    (s2_wt (W2 m ρ c)).trans (by rw [a2_dinv, a2_src, a2_dst]; rfl)
  have a3_src : W3 m ρ c (Proc.devRef .tc main_v3) = sources (m ((c : Thread nD τ).loc main_arg1)) := (s2_src (W2 m ρ c)).trans a2_src
  have a3_dst : W3 m ρ c (Proc.devRef .tc main_v6) = targets (m ((c : Thread nD τ).loc main_arg1)) := (s2_dst (W2 m ρ c)).trans a2_dst
  have a3_arg0 : W3 m ρ c (Proc.devRef .tc main_arg0) = m ((c : Thread nD τ).loc main_arg0) := (s2_arg0 (W2 m ρ c)).trans a2_arg0
  have a3_arg2 : W3 m ρ c (Proc.devRef .tc main_arg2) = m ((c : Thread nD τ).loc main_arg2) := (s2_arg2 (W2 m ρ c)).trans a2_arg2
  have a3_arg3 : W3 m ρ c (Proc.devRef .tc main_arg3) = m ((c : Thread nD τ).loc main_arg3) := (s2_arg3 (W2 m ρ c)).trans a2_arg3
  have a3_arg4 : W3 m ρ c (Proc.devRef .tc main_arg4) = m ((c : Thread nD τ).loc main_arg4) := (s2_arg4 (W2 m ρ c)).trans a2_arg4
  have a3_arg5 : W3 m ρ c (Proc.devRef .tc main_arg5) = m ((c : Thread nD τ).loc main_arg5) := (s2_arg5 (W2 m ρ c)).trans a2_arg5
  -- the first launch
  have a4_out : W4 m ρ c (Proc.devRef .tc main_v32) = P (m ((c : Thread nD τ).loc main_arg0)) (m ((c : Thread nD τ).loc main_arg2)) :=
    (W4_arr m ρ c 2).trans ((hP (V3 m ρ) c).trans (by
      rw [show V3 m ρ c main_arg0 = m ((c : Thread nD τ).loc main_arg0) from a3_arg0,
        show V3 m ρ c main_arg2 = m ((c : Thread nD τ).loc main_arg2) from a3_arg2]))
  have a4_wt : W4 m ρ c (Proc.devRef .tc main_v31) = edgeWeight (m ((c : Thread nD τ).loc main_arg1)) := (W4_of_ne m ρ c main_v31 (by decide)).trans a3_wt
  have a4_src : W4 m ρ c (Proc.devRef .tc main_v3) = sources (m ((c : Thread nD τ).loc main_arg1)) := (W4_of_ne m ρ c main_v3 (by decide)).trans a3_src
  have a4_dst : W4 m ρ c (Proc.devRef .tc main_v6) = targets (m ((c : Thread nD τ).loc main_arg1)) := (W4_of_ne m ρ c main_v6 (by decide)).trans a3_dst
  have a4_arg3 : W4 m ρ c (Proc.devRef .tc main_arg3) = m ((c : Thread nD τ).loc main_arg3) := (W4_of_ne m ρ c main_arg3 (by decide)).trans a3_arg3
  have a4_arg4 : W4 m ρ c (Proc.devRef .tc main_arg4) = m ((c : Thread nD τ).loc main_arg4) := (W4_of_ne m ρ c main_arg4 (by decide)).trans a3_arg4
  have a4_arg5 : W4 m ρ c (Proc.devRef .tc main_arg5) = m ((c : Thread nD τ).loc main_arg5) := (W4_of_ne m ρ c main_arg5 (by decide)).trans a3_arg5
  -- the first propagation: the second launch's entry
  have a5_agg : W5 m ρ c (Proc.devRef .tc main_v45)
      = propagate (m ((c : Thread nD τ).loc main_arg1)) (P (m ((c : Thread nD τ).loc main_arg0)) (m ((c : Thread nD τ).loc main_arg2))) :=
    (s3_agg (W4 m ρ c)).trans (by rw [a4_src, a4_dst, a4_wt, a4_out]; rfl)
  have a5_bias : W5 m ρ c (Proc.devRef .tc main_v46) = shapeCast _ (m ((c : Thread nD τ).loc main_arg3)) Facts₀.shapeCasts_S128_S1x128 :=
    (s3_bias (W4 m ρ c)).trans (by rw [a4_arg3])
  have a5_wt : W5 m ρ c (Proc.devRef .tc main_v31) = edgeWeight (m ((c : Thread nD τ).loc main_arg1)) := (s3_wt (W4 m ρ c)).trans a4_wt
  have a5_src : W5 m ρ c (Proc.devRef .tc main_v3) = sources (m ((c : Thread nD τ).loc main_arg1)) := (s3_src (W4 m ρ c)).trans a4_src
  have a5_dst : W5 m ρ c (Proc.devRef .tc main_v6) = targets (m ((c : Thread nD τ).loc main_arg1)) := (s3_dst (W4 m ρ c)).trans a4_dst
  have a5_arg4 : W5 m ρ c (Proc.devRef .tc main_arg4) = m ((c : Thread nD τ).loc main_arg4) := (s3_arg4 (W4 m ρ c)).trans a4_arg4
  have a5_arg5 : W5 m ρ c (Proc.devRef .tc main_arg5) = m ((c : Thread nD τ).loc main_arg5) := (s3_arg5 (W4 m ρ c)).trans a4_arg5
  -- the second launch
  have a6_out : W6 m ρ c (Proc.devRef .tc main_v47)
      = R (propagate (m ((c : Thread nD τ).loc main_arg1)) (P (m ((c : Thread nD τ).loc main_arg0)) (m ((c : Thread nD τ).loc main_arg2))))
          (m ((c : Thread nD τ).loc main_arg3)) (m ((c : Thread nD τ).loc main_arg4)) :=
    (W6_arr m ρ c 3).trans ((hR (V5 m ρ) c (m ((c : Thread nD τ).loc main_arg3)) a5_bias).trans (by
      rw [show V5 m ρ c main_v45 = propagate (m ((c : Thread nD τ).loc main_arg1)) (P (m ((c : Thread nD τ).loc main_arg0)) (m ((c : Thread nD τ).loc main_arg2))) from a5_agg,
        show V5 m ρ c main_arg4 = m ((c : Thread nD τ).loc main_arg4) from a5_arg4]))
  have a6_wt : W6 m ρ c (Proc.devRef .tc main_v31) = edgeWeight (m ((c : Thread nD τ).loc main_arg1)) := (W6_of_ne m ρ c main_v31 (by decide)).trans a5_wt
  have a6_src : W6 m ρ c (Proc.devRef .tc main_v3) = sources (m ((c : Thread nD τ).loc main_arg1)) := (W6_of_ne m ρ c main_v3 (by decide)).trans a5_src
  have a6_dst : W6 m ρ c (Proc.devRef .tc main_v6) = targets (m ((c : Thread nD τ).loc main_arg1)) := (W6_of_ne m ρ c main_v6 (by decide)).trans a5_dst
  have a6_arg5 : W6 m ρ c (Proc.devRef .tc main_arg5) = m ((c : Thread nD τ).loc main_arg5) := (W6_of_ne m ρ c main_arg5 (by decide)).trans a5_arg5
  -- the second propagation: the third launch's entry
  have a7_agg : W7 m ρ c (Proc.devRef .tc main_v60)
      = propagate (m ((c : Thread nD τ).loc main_arg1))
          (R (propagate (m ((c : Thread nD τ).loc main_arg1)) (P (m ((c : Thread nD τ).loc main_arg0)) (m ((c : Thread nD τ).loc main_arg2))))
            (m ((c : Thread nD τ).loc main_arg3)) (m ((c : Thread nD τ).loc main_arg4))) :=
    (s4_agg (W6 m ρ c)).trans (by rw [a6_src, a6_dst, a6_wt, a6_out]; rfl)
  have a7_bias : W7 m ρ c (Proc.devRef .tc main_v61) = shapeCast _ (m ((c : Thread nD τ).loc main_arg5)) Facts₀.shapeCasts_S128_S1x128 :=
    (s4_bias (W6 m ρ c)).trans (by rw [a6_arg5])
  -- the third launch
  exact (W8_arr m ρ c 2).trans ((hS (V7 m ρ) c (m ((c : Thread nD τ).loc main_arg5)) a7_bias).trans (by
    rw [show V7 m ρ c main_v60 = _ from a7_agg]))

end Composition

end Cert.KernelIdeal.Fold

end
-- ==== Proof.LibPlainMatmul.lean ====
/-
  A plain matrix product into a zero accumulator, read at an entry, at the exact (extended-real) values.

  For an m×k matrix A and a k×n matrix B the product's (a, b) entry is the sum over the contracted coordinate c of
  A(a, c) · B(c, b): the contraction's index set has one axis, of extent k, and is re-indexed by its one coordinate.
-/
import Idealize.ShloMosaic.PureOps.Ideal.Laws
import Idealize.ShloMosaic.Lib.ValueIdx

noncomputable section

open scoped BigOperators

namespace Idealize.ShloMosaic.ValueIdx

open Idealize.ShloMosaic

/-- The (a, b) entry of the plain product of an m×k by a k×n matrix, accumulated into the zero matrix, is
    `∑ c, A (a, c) * B (c, b)` on the extended reals. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant ⟨2, ![m, n]⟩ .f32 0x00000000#32) (ix2 a b)
      = ∑ c : Fin k, A (ix2 a c) * B (ix2 c b) := by
  show FloatOps.matmul (DotDims.plain m k n) prec A B (constant ⟨2, ![m, n]⟩ .f32 0x00000000#32) (ix2 a b) = _
  rw [Ideal.matmul_constant_zero_apply, ← Equiv.sum_comp (contrEquiv1 (DotDims.plain m k n) k rfl rfl).symm]
  refine Finset.sum_congr rfl fun c _ => ?_
  have hc := contrEquiv1_symm_val (DotDims.plain m k n) k rfl rfl c
  have el : (DotDims.plain m k n).lhsIdx (ix2 a b) ((contrEquiv1 (DotDims.plain m k n) k rfl rfl).symm c) = ix2 a c := by
    funext ax; apply Fin.ext
    match ax with
    | ⟨0, _⟩ => simp [DotDims.lhsIdx, DotDims.plain]; rfl
    | ⟨1, _⟩ => simp [DotDims.lhsIdx, DotDims.plain]; exact hc
  have er : (DotDims.plain m k n).rhsIdx (ix2 a b) ((contrEquiv1 (DotDims.plain m k n) k rfl rfl).symm c) = ix2 c b := by
    funext ax; apply Fin.ext
    match ax with
    | ⟨0, _⟩ => simp [DotDims.rhsIdx, DotDims.plain]; exact hc
    | ⟨1, _⟩ => simp [DotDims.rhsIdx, DotDims.plain]; rfl
  rw [el, er]

end Idealize.ShloMosaic.ValueIdx

end
-- ==== Proof.LibPlainDot.lean ====
/-
  A plain matrix product computed as a host dot_general, read at an entry, at the exact (extended-real) values.

  For an m×k matrix A and a k×n matrix B the product's (a, b) entry is the sum over the contracted coordinate c of
  A(a, c) · B(c, b), whatever the schedule key: the contraction's index set has one axis, of extent k, and is
  re-indexed by its one coordinate. The twin, for the host's product, of the same reading of a matmul into a zero
  accumulator.
-/
import Idealize.ShloMosaic.PureOps.Ideal.Laws
import Idealize.ShloMosaic.Lib.ValueIdx

noncomputable section

open scoped BigOperators

namespace Idealize.ShloMosaic.ValueIdx

open Idealize.ShloMosaic

/-- The (a, b) entry of the host's plain product of an m×k by a k×n matrix is `∑ c, A (a, c) * B (c, b)` on the
    extended reals. -/
theorem dotGeneral_plain_apply {m k n : Nat} {φ₁ φ₂ : FTy} (prec : Option ContractPrecision) (sched : HostSchedule)
    (A : FVec Ideal ⟨2, ![m, k]⟩ φ₁) (B : FVec Ideal ⟨2, ![k, n]⟩ φ₂) (a : Fin m) (b : Fin n) :
    FloatOps.dotGeneral (DotDims.plain m k n) prec sched A B (ix2 a b) = ∑ c : Fin k, A (ix2 a c) * B (ix2 c b) := by
  rw [Ideal.dotGeneral_apply, ← Equiv.sum_comp (contrEquiv1 (DotDims.plain m k n) k rfl rfl).symm]
  refine Finset.sum_congr rfl fun c _ => ?_
  have hc := contrEquiv1_symm_val (DotDims.plain m k n) k rfl rfl c
  have el : (DotDims.plain m k n).lhsIdx (ix2 a b) ((contrEquiv1 (DotDims.plain m k n) k rfl rfl).symm c) = ix2 a c := by
    funext ax; apply Fin.ext
    match ax with
    | ⟨0, _⟩ => simp [DotDims.lhsIdx, DotDims.plain]; rfl
    | ⟨1, _⟩ => simp [DotDims.lhsIdx, DotDims.plain]; exact hc
  have er : (DotDims.plain m k n).rhsIdx (ix2 a b) ((contrEquiv1 (DotDims.plain m k n) k rfl rfl).symm c) = ix2 c b := by
    funext ax; apply Fin.ext
    match ax with
    | ⟨0, _⟩ => simp [DotDims.rhsIdx, DotDims.plain]; exact hc
    | ⟨1, _⟩ => simp [DotDims.rhsIdx, DotDims.plain]; rfl
  rw [el, er]

/-- The same for the schedule key of one device's data, as a host program applies it. -/
theorem hostDotGeneral_plain_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    Host.dotGeneral (DotDims.plain m k n) prec A B (ix2 a b) = ∑ c : Fin k, A (ix2 a c) * B (ix2 c b) :=
  dotGeneral_plain_apply prec .single A B a b

end Idealize.ShloMosaic.ValueIdx

end
-- ==== Proof.Products.lean ====
/-
  The two dense stages of a two-layer graph convolution, on the extended reals.

  Layer one multiplies the [50000,128] feature matrix x by the [128,128] weights w:
  (x · w)(p, q) = Σ_k x(p, k) · w(k, q). Layer two adds a [128] bias b to the aggregated [50000,128] matrix a along
  the rows, clamps below at 0 and multiplies by its weights: Σ_k max(a(p, k) + b(k), 0) · w(k, q).

  Kernel side: each product is computed in ten row blocks of 5000 rows; block t reads rows 5000·t … 5000·t + 4999 of
  the left operand and the whole of the bias and the weights, and writes the same rows of the output. An entry of a
  block is the plain matrix product's sum over the contracted coordinate (rounding to a narrower format is the
  identity on the extended reals), every row lies in the block of its quotient by 5000, so the ten blocks written back
  make up the whole-array function.

  Reference side: the same two functions, read off the host's products entry by entry.
-/
import proofs.«105155_j75814762709760_2_alg».proof.Proof.Gen.KernelIdeal.Frame
import proofs.«105155_j75814762709760_2_alg».proof.Proof.RefRead
import proofs.«105155_j75814762709760_2_alg».proof.Proof.LibPlainMatmul
import proofs.«105155_j75814762709760_2_alg».proof.Proof.LibPlainDot
import Idealize.ShloMosaic.Lib.ValueIdx
import Idealize.ShloMosaic.Lib.Pipeline.Value
import Idealize.ShloMosaic.Lib.ValueLayout
import Idealize.ShloMosaic.PureOps.Ideal.Laws

set_option maxRecDepth 16384
noncomputable section
open scoped BigOperators

namespace GraphConv
open Idealize.ShloMosaic Idealize.ShloMosaic.ValueIdx
/-- The dense stage of layer one: (x · w)(p, q) = Σ_k x(p, k) · w(k, q), on the extended reals. -/
def product (x : (⟨2, ![50000, 128]⟩ : Shape).Idx → EReal) (w : (⟨2, ![128, 128]⟩ : Shape).Idx → EReal) :
    (⟨2, ![50000, 128]⟩ : Shape).Idx → EReal :=
  fun i => ∑ k : Fin 128, x (ix2 (⟨(i 0).val, (i 0).isLt⟩ : Fin 50000) k) * w (ix2 k (⟨(i 1).val, (i 1).isLt⟩ : Fin 128))
/-- The dense stage of layer two: Σ_k max(a(p, k) + b(k), 0) · w(k, q). -/
def reluProduct (a : (⟨2, ![50000, 128]⟩ : Shape).Idx → EReal) (b : (⟨1, ![128]⟩ : Shape).Idx → EReal)
    (w : (⟨2, ![128, 128]⟩ : Shape).Idx → EReal) : (⟨2, ![50000, 128]⟩ : Shape).Idx → EReal :=
  fun i => ∑ k : Fin 128, max (a (ix2 (⟨(i 0).val, (i 0).isLt⟩ : Fin 50000) k) + b (ix1 k)) 0 * w (ix2 k (⟨(i 1).val, (i 1).isLt⟩ : Fin 128))
end GraphConv

namespace Cert.KernelIdeal.Layers
open Cert.KernelIdeal Cert.KernelIdeal.Gen Idealize.ShloMosaic Idealize.ShloMosaic.TcCoe Idealize.ShloMosaic.ValueIdx Idealize.SL.Sem

/-- The printed contraction record is the plain M×K by K×N one. -/
theorem product_dot_eq_plain : dot_S5000x128_S128x128_S5000x128_1_0_0_1_n_n = DotDims.plain 5000 128 128 := rfl

/-- Launch 0's stored value at (p, q): the sum over k of x(p, k) · w(k, q). -/
theorem product_payload (x0 : Vec Ideal S5000x128 .f32) (x2 : Vec Ideal S128x128 .f32) (p : Fin 5000) (q : Fin 128) :
    k0_pay1 x0 x2 (ix2 p q) = ∑ k : Fin 128, x0 (ix2 p k) * x2 (ix2 k q) := by
  unfold k0_pay1
  rw [product_dot_eq_plain]
  refine (matmul_plain_zero_apply none _ _ p q).trans ?_
  refine Finset.sum_congr rfl fun k _ => ?_
  rw [truncf_apply, truncf_apply]

/-- Launch 1's stored value at (p, q): the sum over k of max(a(p, k) + b(0, k), 0) · w(k, q). -/
theorem reluProduct_payload (x0 : Vec Ideal S5000x128 .f32) (x1 : Vec Ideal S1x128 .f32) (x2 : Vec Ideal S128x128 .f32)
    (p : Fin 5000) (q : Fin 128) :
    k1_pay1 x0 x1 x2 (ix2 p q) = ∑ k : Fin 128, max (x0 (ix2 p k) + x1 (ix2 (0 : Fin 1) k)) 0 * x2 (ix2 k q) := by
  unfold k1_pay1
  rw [product_dot_eq_plain]
  refine (matmul_plain_zero_apply none _ _ p q).trans ?_
  refine Finset.sum_congr rfl fun k _ => ?_
  rw [truncf_apply, truncf_apply, maximumf_apply, addf_apply, shapeCast_self, shapeCast_self,
    broadcastTo_1b_ab_apply, broadcast_apply]
  show max (x0 (ix2 p k) + x1 (ix2 (0 : Fin 1) k)) (Ideal.ofBits .f32 0x00000000#32) * x2 (ix2 k q) = _
  rw [Ideal.ofBits_zero_f32]
variable (V : (c : Dev nD) → (b : Ref sig .tc) → Buf (Elt Ideal) ((c : Thread nD τ).loc b))

/-- The zero offsets of a whole-buffer access, as a constant function. -/
theorem product_zero_offsets : (![0, 0] : Fin 2 → Nat) = fun _ => 0 := funext fun a => by fin_cases a <;> rfl

/-! ## Launch 0 -/

/-- The index maps of launch 0, decided over its ten points: the left operand's row block moves with the output's,
    which is block t; every other block index is 0. -/
theorem product_idx_facts : ∀ t : Fin cfg0.N, win0_2.index t (0 : Fin 2) = t.val ∧ win0_2.index t (1 : Fin 2) = 0
    ∧ win0_0.index t (0 : Fin 2) = win0_2.index t (0 : Fin 2) ∧ win0_0.index t (1 : Fin 2) = 0
    ∧ win0_1.index t (0 : Fin 2) = 0 ∧ win0_1.index t (1 : Fin 2) = 0 :=
  (by decide +kernel : ∀ t : Fin grid0.N, _)

/-- What point t writes back is block t of the product of the two argument arrays. -/
theorem product_flushed (c : Dev nD) (t : Fin cfg0.N) :
    (dat0 (F := Ideal) V c).flushed 2 t
      = ((cfg0.win 2).blk t).view.read (Elt Ideal) (GraphConv.product (V c main_arg0) (V c main_arg2)) := by
  show (cfg0.win 2).cut (grid0.coords t) ((dat0 V c).after 2 t) = _
  rw [after0_2]
  unfold out0_2
  rw [View.canon_unit_zero product_zero_offsets]
  simp only [View.ld_unit_zero (S := S5000x128) product_zero_offsets, View.ld_unit_zero (S := S128x128) product_zero_offsets]
  obtain ⟨-, e1, e2, e3, e4, e5⟩ := product_idx_facts t
  funext j
  obtain ⟨p, q, rfl⟩ : ∃ (p : Fin 5000) (q : Fin 128), j = ix2 p q := ⟨j 0, j 1, eq_ix2 j⟩
  show k0_pay1 (iblk0 V c 0 t) (iblk0 V c 1 t) (ix2 p q)
    = GraphConv.product (V c main_arg0) (V c main_arg2) (((cfg0.win 2).blk t).view.emb (ix2 p q))
  refine (product_payload _ _ p q).trans ?_
  unfold GraphConv.product
  refine Finset.sum_congr rfl fun k _ => ?_
  congr 1
  · show V c main_arg0 (((cfg0.win 0).blk t).view.emb (ix2 p k)) = _
    congr 1
    funext a; apply Fin.ext
    match a with
    | ⟨0, _⟩ => show win0_0.index t (0 : Fin 2) * 5000 + 1 * p.val = win0_2.index t (0 : Fin 2) * 5000 + 1 * p.val; rw [e2]
    | ⟨1, _⟩ => show win0_0.index t (1 : Fin 2) * 128 + 1 * k.val = k.val; rw [e3]; omega
  · show V c main_arg2 (((cfg0.win 1).blk t).view.emb (ix2 k q)) = _
    congr 1
    funext a; apply Fin.ext
    match a with
    | ⟨0, _⟩ => show win0_1.index t (0 : Fin 2) * 128 + 1 * k.val = k.val; rw [e4]; omega
    | ⟨1, _⟩ => show win0_1.index t (1 : Fin 2) * 128 + 1 * q.val = win0_2.index t (1 : Fin 2) * 128 + 1 * q.val; rw [e5, e1]

/-- An index of the output array is in point t's block iff each coordinate is in the block's range on its axis. -/
theorem product_mem_blk (t : Fin cfg0.N) (i : S50000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_v32).slice (win0_2.rect t)).set ↔ _
  rw [View.set_slice_whole, Rect.mem_set_unit]
  exact Iff.rfl

/-- Row r of the output is written by point r / 5000: the ten row blocks tile the array. -/
theorem product_cover (i : S50000x128.Idx) :
    ∃ t : Fin cfg0.N, (cfg0.win 2).flush t = true ∧ i ∈ ((cfg0.win 2).blk t).view.set := by
  have h0 : (i 0).val < 50000 := (i 0).isLt
  have h1 : (i 1).val < 128 := (i 1).isLt
  have hN : cfg0.N = 10 := N_0
  have ht : (i 0).val / 5000 < cfg0.N := by rw [hN]; omega
  obtain ⟨f0, f1, -⟩ := product_idx_facts ⟨(i 0).val / 5000, ht⟩
  have f0' : win0_2.index ⟨(i 0).val / 5000, ht⟩ (0 : Fin 2) = (i 0).val / 5000 := f0
  refine ⟨⟨(i 0).val / 5000, ht⟩, flush0_2 _, ?_⟩
  rw [product_mem_blk]
  intro a
  match a with
  | ⟨0, _⟩ =>
    show win0_2.index ⟨(i 0).val / 5000, ht⟩ (0 : Fin 2) * 5000 ≤ (i 0).val
      ∧ (i 0).val < win0_2.index ⟨(i 0).val / 5000, ht⟩ (0 : Fin 2) * 5000 + 5000
    rw [f0']; omega
  | ⟨1, _⟩ =>
    show win0_2.index ⟨(i 0).val / 5000, ht⟩ (1 : Fin 2) * 128 ≤ (i 1).val
      ∧ (i 1).val < win0_2.index ⟨(i 0).val / 5000, ht⟩ (1 : Fin 2) * 128 + 128
    rw [f1]; omega

/-- Launch 0's output array after all its write-backs, for ANY entry contents V. (Its windows: 0 ↦ main_arg0 row-blocked, 1 ↦ main_arg2 whole, 2 ↦ the output main_v32.) -/
theorem product_array (c : Dev nD) :
    (dat0 (F := Ideal) V c).arrAt 2 cfg0.N = GraphConv.product (V c main_arg0) (V c main_arg2) :=
  (dat0 (F := Ideal) V c).arrAt_eq_of_cover 2 (GraphConv.product (V c main_arg0) (V c main_arg2))
    (fun t _ => product_flushed V c t) product_cover

/-! ## Launch 1 -/

/-- The index maps of launch 1, decided over its ten points: the aggregate's row block moves with the output's,
    which is block t; the bias and the weights are one whole block each. -/
theorem reluProduct_idx_facts : ∀ t : Fin cfg1.N, win1_3.index t (0 : Fin 2) = t.val ∧ win1_3.index t (1 : Fin 2) = 0
    ∧ win1_0.index t (0 : Fin 2) = win1_3.index t (0 : Fin 2) ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0 :=
  (by decide +kernel : ∀ t : Fin grid1.N, _)

/-- What point t writes back is block t of the second dense stage of the aggregate, the bias and the weights. -/
theorem reluProduct_flushed (c : Dev nD) (b : (⟨S128, .f32⟩ : BufTy).Contents (Elt Ideal))
    (hb : V c main_v46 = shapeCast _ b shapeCasts_S128_S1x128) (t : Fin cfg1.N) :
    (dat1 (F := Ideal) V c).flushed 3 t
      = ((cfg1.win 3).blk t).view.read (Elt Ideal) (GraphConv.reluProduct (V c main_v45) b (V c main_arg4)) := by
  show (cfg1.win 3).cut (grid1.coords t) ((dat1 V c).after 3 t) = _
  rw [after1_3]
  unfold out1_3
  rw [View.canon_unit_zero product_zero_offsets]
  simp only [View.ld_unit_zero (S := S5000x128) product_zero_offsets, View.ld_unit_zero (S := S1x128) product_zero_offsets, View.ld_unit_zero (S := S128x128) product_zero_offsets]
  obtain ⟨-, e1, e2, e3, e4, e5, e6, e7⟩ := reluProduct_idx_facts t
  funext j
  obtain ⟨p, q, rfl⟩ : ∃ (p : Fin 5000) (q : Fin 128), j = ix2 p q := ⟨j 0, j 1, eq_ix2 j⟩
  show k1_pay1 (iblk1 V c 0 t) (iblk1 V c 1 t) (iblk1 V c 2 t) (ix2 p q)
    = GraphConv.reluProduct (V c main_v45) b (V c main_arg4) (((cfg1.win 3).blk t).view.emb (ix2 p q))
  refine (reluProduct_payload _ _ _ p q).trans ?_
  unfold GraphConv.reluProduct
  refine Finset.sum_congr rfl fun k _ => ?_
  refine congrArg₂ (· * ·) (congrArg₂ max (congrArg₂ (· + ·) ?_ ?_) rfl) ?_
  · show V c main_v45 (((cfg1.win 0).blk t).view.emb (ix2 p k)) = _
    congr 1
    funext a; apply Fin.ext
    match a with
    | ⟨0, _⟩ => show win1_0.index t (0 : Fin 2) * 5000 + 1 * p.val = win1_3.index t (0 : Fin 2) * 5000 + 1 * p.val; rw [e2]
    | ⟨1, _⟩ => show win1_0.index t (1 : Fin 2) * 128 + 1 * k.val = k.val; rw [e3]; omega
  · show V c main_v46 (((cfg1.win 1).blk t).view.emb (ix2 (0 : Fin 1) k)) = _
    have hi : ((cfg1.win 1).blk t).view.emb (ix2 (0 : Fin 1) k) = ix2 (0 : Fin 1) k := by
      funext a; apply Fin.ext
      match a with
      | ⟨0, _⟩ => show win1_1.index t (0 : Fin 2) * 1 + 1 * 0 = 0; rw [e4]
      | ⟨1, _⟩ => show win1_1.index t (1 : Fin 2) * 128 + 1 * k.val = k.val; rw [e5]; omega
    rw [hi, hb]
    exact shapeCast_a_1a_apply b shapeCasts_S128_S1x128 (0 : Fin 1) k
  · show V c main_arg4 (((cfg1.win 2).blk t).view.emb (ix2 k q)) = _
    congr 1
    funext a; apply Fin.ext
    match a with
    | ⟨0, _⟩ => show win1_2.index t (0 : Fin 2) * 128 + 1 * k.val = k.val; rw [e6]; omega
    | ⟨1, _⟩ => show win1_2.index t (1 : Fin 2) * 128 + 1 * q.val = win1_3.index t (1 : Fin 2) * 128 + 1 * q.val; rw [e7, e1]

/-- An index of the output array is in point t's block iff each coordinate is in the block's range on its axis. -/
theorem reluProduct_mem_blk (t : Fin cfg1.N) (i : S50000x128.Idx) :
    i ∈ ((cfg1.win 3).blk t).view.set ↔ ∀ a : Fin 2, win1_3.index t a * S5000x128.size a ≤ (i a).val
      ∧ (i a).val < win1_3.index t a * S5000x128.size a + S5000x128.size a := by
  show i ∈ ((View.whole main_v47).slice (win1_3.rect t)).set ↔ _
  rw [View.set_slice_whole, Rect.mem_set_unit]
  exact Iff.rfl

/-- Row r of the output is written by point r / 5000: the ten row blocks tile the array. -/
theorem reluProduct_cover (i : S50000x128.Idx) :
    ∃ t : Fin cfg1.N, (cfg1.win 3).flush t = true ∧ i ∈ ((cfg1.win 3).blk t).view.set := by
  have h0 : (i 0).val < 50000 := (i 0).isLt
  have h1 : (i 1).val < 128 := (i 1).isLt
  have hN : cfg1.N = 10 := N_1
  have ht : (i 0).val / 5000 < cfg1.N := by rw [hN]; omega
  obtain ⟨f0, f1, -⟩ := reluProduct_idx_facts ⟨(i 0).val / 5000, ht⟩
  have f0' : win1_3.index ⟨(i 0).val / 5000, ht⟩ (0 : Fin 2) = (i 0).val / 5000 := f0
  refine ⟨⟨(i 0).val / 5000, ht⟩, flush1_3 _, ?_⟩
  rw [reluProduct_mem_blk]
  intro a
  match a with
  | ⟨0, _⟩ =>
    show win1_3.index ⟨(i 0).val / 5000, ht⟩ (0 : Fin 2) * 5000 ≤ (i 0).val
      ∧ (i 0).val < win1_3.index ⟨(i 0).val / 5000, ht⟩ (0 : Fin 2) * 5000 + 5000
    rw [f0']; omega
  | ⟨1, _⟩ =>
    show win1_3.index ⟨(i 0).val / 5000, ht⟩ (1 : Fin 2) * 128 ≤ (i 1).val
      ∧ (i 1).val < win1_3.index ⟨(i 0).val / 5000, ht⟩ (1 : Fin 2) * 128 + 128
    rw [f1]; omega

/-- Launch 1's output array, when its [1,128] bias window holds the [128] bias b recast. (Windows: 0 ↦ main_v45 row-blocked, 1 ↦ main_v46 the [1,128] bias, 2 ↦ main_arg4 whole, 3 ↦ the output main_v47.) -/
theorem reluProduct_array (c : Dev nD) (b : (⟨S128, .f32⟩ : BufTy).Contents (Elt Ideal))
    (hb : V c main_v46 = shapeCast _ b shapeCasts_S128_S1x128) :
    (dat1 (F := Ideal) V c).arrAt 3 cfg1.N = GraphConv.reluProduct (V c main_v45) b (V c main_arg4) :=
  (dat1 (F := Ideal) V c).arrAt_eq_of_cover 3 (GraphConv.reluProduct (V c main_v45) b (V c main_arg4))
    (fun t _ => reluProduct_flushed V c b hb t) reluProduct_cover

end Cert.KernelIdeal.Layers

namespace Cert.ReferenceIdeal.Layers
open Cert.ReferenceIdeal Idealize.ShloMosaic Idealize.ShloMosaic.ValueIdx

/-- The left operand's index of a product's k-th term, from its coordinates. -/
theorem product_lidx_eq (i : S50000x128.Idx) (k : Fin 128) :
    ReadP.lidx_main_v7 i k = ix2 (⟨(i 0).val, (i 0).isLt⟩ : Fin 50000) k :=
  funext fun a => by match a with | ⟨0, _⟩ => rfl | ⟨1, _⟩ => rfl

/-- The right operand's index of a product's k-th term, from its coordinates. -/
theorem product_ridx_eq (i : S50000x128.Idx) (k : Fin 128) :
    ReadP.ridx_main_v7 i k = ix2 k (⟨(i 1).val, (i 1).isLt⟩ : Fin 128) :=
  funext fun a => by match a with | ⟨0, _⟩ => rfl | ⟨1, _⟩ => rfl

/-- The reference's first dot_general is the same function. -/
theorem product_stage (x0 : (⟨S50000x128, .f32⟩ : BufTy).Contents (Elt Ideal)) (x2 : (⟨S128x128, .f32⟩ : BufTy).Contents (Elt Ideal)) :
    ReadP.val_main_v7 (F := Ideal) x0 x2 = GraphConv.product x0 x2 := by
  funext i
  rw [ReadP.val_main_v7_apply]
  unfold GraphConv.product
  refine Finset.sum_congr rfl fun k _ => ?_
  rw [product_lidx_eq, product_ridx_eq]

/-- The second product's operand indices are the first's. -/
theorem reluProduct_lidx_eq (i : S50000x128.Idx) (k : Fin 128) :
    ReadP.lidx_main_v50 i k = ix2 (⟨(i 0).val, (i 0).isLt⟩ : Fin 50000) k :=
  funext fun a => by match a with | ⟨0, _⟩ => rfl | ⟨1, _⟩ => rfl

theorem reluProduct_ridx_eq (i : S50000x128.Idx) (k : Fin 128) :
    ReadP.ridx_main_v50 i k = ix2 k (⟨(i 1).val, (i 1).isLt⟩ : Fin 128) :=
  funext fun a => by match a with | ⟨0, _⟩ => rfl | ⟨1, _⟩ => rfl

/-- The bias broadcast over the rows, read at (r, k), is the bias at k. -/
theorem reluProduct_bias_idx_eq (r : Fin 50000) (k : Fin 128) :
    ReadP.idx_main_v46 (ReadP.idx_main_v47 (ix2 r k)) = ix1 k :=
  funext fun a => by match a with | ⟨0, _⟩ => rfl

/-- The reference's second dot_general, of relu(aggregate + bias), is the same function of the aggregate (stage 45), the bias and the weights. -/
theorem reluProduct_stage (x0 : (⟨S50000x128, .f32⟩ : BufTy).Contents (Elt Ideal)) (x1 : (⟨S2x800000, .i32⟩ : BufTy).Contents (Elt Ideal))
    (x2 : (⟨S128x128, .f32⟩ : BufTy).Contents (Elt Ideal)) (x3 : (⟨S128, .f32⟩ : BufTy).Contents (Elt Ideal)) (x4 : (⟨S128x128, .f32⟩ : BufTy).Contents (Elt Ideal)) :
    ReadP.val_main_v50 (F := Ideal) x0 x1 x2 x3 x4 = GraphConv.reluProduct (ReadP.val_main_v45 (F := Ideal) x0 x1 x2) x3 x4 := by
  funext i
  rw [ReadP.val_main_v50_apply]
  unfold GraphConv.reluProduct
  refine Finset.sum_congr rfl fun k _ => ?_
  rw [ReadP.val_main_v49_apply, ReadP.val_main_v48_apply, ReadP.val_main_call1_v0_apply, ReadP.val_main_call1_cst_apply,
    ReadP.val_main_v47_apply, ReadP.val_main_v46_apply, reluProduct_lidx_eq, reluProduct_ridx_eq, reluProduct_bias_idx_eq]
  generalize ReadP.val_main_v45 (F := Ideal) x0 x1 x2 = A
  show max (A (ix2 (⟨(i 0).val, (i 0).isLt⟩ : Fin 50000) k) + x3 (ix1 k)) (Ideal.ofBits .f32 0x00000000#32)
      * x4 (ix2 k (⟨(i 1).val, (i 1).isLt⟩ : Fin 128)) = _
  rw [Ideal.ofBits_zero_f32]

end Cert.ReferenceIdeal.Layers

end
-- ==== Proof.LogSoftmax.lean ====
/- The log-softmax layer of the two-layer graph convolution, on both sides.
   `GraphConv.logSoftmax a b`: log_softmax along the 128 columns of a + b (b a row, broadcast down the 50000 rows).
   Kernel side: the body's arithmetic at an entry of a [5000,128] block (the two keepdims layout operations read at
   coordinates, the row maximum and the row sum as a fold and a sum over the 128 columns), each window's block as rows of
   its array, what a grid point writes back, the cover of the array by the ten row blocks, and the array after the
   write-backs (`Cert.KernelIdeal.Layers.logSoftmax_array`).
   Reference side: the stages of the host's log_softmax read at an index, the host's maximum as the same fold, and the
   stage as the same function of the aggregate and the bias (`Cert.ReferenceIdeal.Layers.logSoftmax_stage`). -/
import proofs.«105155_j75814762709760_2_alg».proof.Proof.Gen.KernelIdeal.Frame
import proofs.«105155_j75814762709760_2_alg».proof.Proof.RefRead
import Idealize.ShloMosaic.Lib.ValueIdx
import Idealize.ShloMosaic.Lib.Pipeline.Value
import Idealize.ShloMosaic.Lib.ValueLayout
import Idealize.ShloMosaic.PureOps.Ideal.Laws
import Idealize.ShloMosaic.PureOps.Reduce

set_option maxRecDepth 16384
noncomputable section
open scoped BigOperators

namespace GraphConv
open Idealize.ShloMosaic Idealize.ShloMosaic.ValueIdx
/-- A row's maximum over its 128 columns, from −∞. -/
def rowMax (y : (⟨2, ![50000, 128]⟩ : Shape).Idx → EReal) (p : Fin 50000) : EReal :=
  (Finset.univ : Finset (Fin 128)).fold max (FloatOps.ofBits (F := Ideal) .f32 0xFF800000#32) (fun k => y (ix2 p k))
/-- log_softmax along the 128 columns of (a + b): with y = a + b (b broadcast down the rows), M the row's maximum and
    z = y − M, the entry is z(p, q) − log Σ_k exp z(p, k). -/
def logSoftmax (a : (⟨2, ![50000, 128]⟩ : Shape).Idx → EReal) (b : (⟨1, ![128]⟩ : Shape).Idx → EReal) :
    (⟨2, ![50000, 128]⟩ : Shape).Idx → EReal :=
  fun i =>
    let y : (⟨2, ![50000, 128]⟩ : Shape).Idx → EReal := fun j => a j + b (ix1 (⟨(j 1).val, (j 1).isLt⟩ : Fin 128))
    let p : Fin 50000 := ⟨(i 0).val, (i 0).isLt⟩
    (y i - rowMax y p) - FloatOps.log (F := Ideal) (φ := .f32) (∑ k : Fin 128, FloatOps.exp (F := Ideal) (φ := .f32) (y (ix2 p k) - rowMax y p))

/-! ## Keepdims layout: a column [a] → [a,1] and its broadcast [a,1] → [a,b], read at coordinates -/

/-- An `[a]` array cast to `[a, 1]` reads, at `(i, u)`, the operand at `i`, whatever the unit coordinate `u`. -/
private theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's row `p`. -/
private theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl
end GraphConv

namespace Cert.KernelIdeal.Layers
open Cert.KernelIdeal Cert.KernelIdeal.Gen Idealize.ShloMosaic Idealize.ShloMosaic.TcCoe Idealize.ShloMosaic.ValueIdx Idealize.SL.Sem

/-! ## The body's arithmetic at row p, column q of a [5000,128] block -/

/-- A block row's maximum over its 128 columns, from −∞. -/
def lsmBlkMax (Y : FVec Ideal S5000x128 .f32) (p : Fin 5000) : EReal :=
  (Finset.univ : Finset (Fin 128)).fold max (FloatOps.ofBits (F := Ideal) .f32 0xFF800000#32) (fun k => Y (ix2 p k))

theorem lsm_exp_apply {s : Shape} {φ : FTy} (a : FVec Ideal s φ) (i : s.Idx) : exp a i = FloatOps.exp (a i) := rfl
theorem lsm_log_apply {s : Shape} {φ : FTy} (a : FVec Ideal s φ) (i : s.Idx) : log a i = FloatOps.log (a i) := rfl

/-- The index over row p whose column coordinate is k. -/
theorem lsm_lift_row (p : Fin 5000) (k : Fin 128) :
    (reduces_S5000x128_S5000).lift (ix1 p) k = ix2 p k := by
  funext c
  match c with
  | ⟨0, _⟩ => exact Fin.ext rfl
  | ⟨1, _⟩ => exact Fin.ext rfl

/-- The maximum over the columns, at row p: the fold of max over the row. -/
theorem lsm_max_row (Y : FVec Ideal S5000x128 .f32) (hφ : FKind.Formats .f32) (hacc : (0xFF800000#32 : BitVec 32) = FKind.maximumf.neutral .f32 hφ) (p : Fin 5000) :
    multiReduction .maximumf [1] S5000 Y 0xFF800000#32 reduces_S5000x128_S5000 hφ hacc (ix1 p) = lsmBlkMax Y p := by
  refine (Ideal.multiReduction_maximumf_single Y _ reduces_S5000x128_S5000 hφ hacc (ix1 p)).trans ?_
  unfold lsmBlkMax
  congr 1
  funext k
  exact congrArg Y (lsm_lift_row p k)

/-- The sum over the columns, at row p. -/
theorem lsm_sum_row (E : FVec Ideal S5000x128 .f32) (hφ : FKind.Formats .f32) (hacc : (0x00000000#32 : BitVec 32) = FKind.add.neutral .f32 hφ) (p : Fin 5000) :
    multiReduction .add [1] S5000 E 0x00000000#32 reduces_S5000x128_S5000 hφ hacc (ix1 p) = ∑ k : Fin 128, E (ix2 p k) := by
  refine (Ideal.multiReduction_add_single E _ reduces_S5000x128_S5000 hφ hacc (ix1 p)).trans ?_
  refine Finset.sum_congr rfl fun k _ => ?_
  exact congrArg E (lsm_lift_row p k)

/-- A per-row value kept as a column and broadcast along the row reads the row's value. -/
theorem lsm_keep_apply (m : FVec Ideal S5000 .f32) (p : Fin 5000) (q : Fin 128) :
    broadcastTo S5000x128 (shapeCast S5000x1 m shapeCasts_S5000_S5000x1) broadcasts_S5000x1_S5000x128 (ix2 p q) = m (ix1 p) := by
  rw [GraphConv.broadcastTo_a1_ab_apply, GraphConv.shapeCast_a_a1_apply]

/-- The same with the logarithm taken on the column. -/
theorem lsm_keep_log_apply (m : FVec Ideal S5000 .f32) (p : Fin 5000) (q : Fin 128) :
    broadcastTo S5000x128 (log (shapeCast S5000x1 m shapeCasts_S5000_S5000x1)) broadcasts_S5000x1_S5000x128 (ix2 p q) = FloatOps.log (m (ix1 p)) := by
  rw [GraphConv.broadcastTo_a1_ab_apply, lsm_log_apply, GraphConv.shapeCast_a_a1_apply]

/-- log_softmax of a block Y along its columns, at (p, q). -/
theorem lsm_apply (Y : FVec Ideal S5000x128 .f32) (hφ : FKind.Formats .f32)
    (hm : (0xFF800000#32 : BitVec 32) = FKind.maximumf.neutral .f32 hφ) (ha : (0x00000000#32 : BitVec 32) = FKind.add.neutral .f32 hφ)
    (p : Fin 5000) (q : Fin 128) :
    subf (subf Y (broadcastTo S5000x128 (shapeCast S5000x1 (multiReduction .maximumf [1] S5000 Y 0xFF800000#32 reduces_S5000x128_S5000 hφ hm) shapeCasts_S5000_S5000x1) broadcasts_S5000x1_S5000x128))
        (broadcastTo S5000x128 (log (shapeCast S5000x1 (multiReduction .add [1] S5000
            (exp (subf Y (broadcastTo S5000x128 (shapeCast S5000x1 (multiReduction .maximumf [1] S5000 Y 0xFF800000#32 reduces_S5000x128_S5000 hφ hm) shapeCasts_S5000_S5000x1) broadcasts_S5000x1_S5000x128)))
            0x00000000#32 reduces_S5000x128_S5000 hφ ha) shapeCasts_S5000_S5000x1)) broadcasts_S5000x1_S5000x128) (ix2 p q)
      = (Y (ix2 p q) - lsmBlkMax Y p) - FloatOps.log (F := Ideal) (φ := .f32) (∑ k : Fin 128, FloatOps.exp (F := Ideal) (φ := .f32) (Y (ix2 p k) - lsmBlkMax Y p)) := by
  rw [subf_apply, subf_apply, lsm_keep_apply, lsm_keep_log_apply, lsm_max_row, lsm_sum_row]
  simp only [lsm_exp_apply, subf_apply, lsm_keep_apply]
  rw [lsm_max_row]

/-- The block plus the bias row, as a function of the index. -/
theorem lsm_biased_eq (x0 : Vec Ideal S5000x128 .f32) (x1 : Vec Ideal S1x128 .f32) :
    addf (F := Ideal) (φ := .f32) (shapeCast S5000x128 x0 shapeCasts_S5000x128_S5000x128) (broadcastTo S5000x128 (shapeCast S1x128 x1 shapeCasts_S1x128_S1x128) broadcasts_S1x128_S5000x128)
      = fun j => x0 j + x1 (ix2 (0 : Fin 1) (⟨(j 1).val, (j 1).isLt⟩ : Fin 128)) := by
  funext j
  obtain ⟨p, k, rfl⟩ : ∃ (p : Fin 5000) (k : Fin 128), j = ix2 p k := ⟨j 0, j 1, eq_ix2 j⟩
  rw [addf_apply, shapeCast_self, shapeCast_self, broadcastTo_1b_ab_apply]

/-- The body's payload at row p, column q of the block. -/
theorem lsm_pay_apply (x0 : Vec Ideal S5000x128 .f32) (x1 : Vec Ideal S1x128 .f32) (p : Fin 5000) (q : Fin 128) :
    k2_pay1 x0 x1 (ix2 p q)
      = ((x0 (ix2 p q) + x1 (ix2 (0 : Fin 1) q)) - lsmBlkMax (fun j => x0 j + x1 (ix2 (0 : Fin 1) (⟨(j 1).val, (j 1).isLt⟩ : Fin 128))) p)
        - FloatOps.log (F := Ideal) (φ := .f32) (∑ k : Fin 128, FloatOps.exp (F := Ideal) (φ := .f32)
            ((x0 (ix2 p k) + x1 (ix2 (0 : Fin 1) k)) - lsmBlkMax (fun j => x0 j + x1 (ix2 (0 : Fin 1) (⟨(j 1).val, (j 1).isLt⟩ : Fin 128))) p)) := by
  unfold k2_pay1
  dsimp only
  rw [lsm_biased_eq]
  exact lsm_apply _ _ _ _ p q

/-! ## From the blocks to the array -/

variable (V : (c : Dev nD) → (b : Ref sig .tc) → Buf (Elt Ideal) ((c : Thread nD τ).loc b))

theorem lsm_hz : (![0, 0] : Fin 2 → Nat) = fun _ => 0 := funext fun a => by fin_cases a <;> rfl

/-- The printed index maps, decided over the grid: the row-blocked windows sit at block (t, 0), the bias window at (0, 0). -/
theorem lsm_idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The payload of a block and a bias row that are rows r … r+4999 of A and the bias b recast, at an index j of the block,
    is log_softmax (A + b) at the index i of the array over j. -/
theorem lsm_block_eq (x0 : Vec Ideal S5000x128 .f32) (x1 : Vec Ideal S1x128 .f32) (A : S50000x128.Idx → EReal) (b : S128.Idx → EReal)
    (r : Nat) (hr : r + 5000 ≤ 50000)
    (h0 : ∀ (p : Fin 5000) (k : Fin 128), x0 (ix2 p k) = A (ix2 (⟨r + p.val, by have := p.isLt; omega⟩ : Fin 50000) k))
    (h1 : ∀ k : Fin 128, x1 (ix2 (0 : Fin 1) k) = b (ix1 k))
    (j : S5000x128.Idx) (i : S50000x128.Idx) (hi0 : (i 0).val = r + (j 0).val) (hi1 : (i 1).val = (j 1).val) :
    k2_pay1 x0 x1 j = GraphConv.logSoftmax A b i := by
  obtain ⟨p, q, rfl⟩ : ∃ (p : Fin 5000) (q : Fin 128), j = ix2 p q := ⟨j 0, j 1, eq_ix2 j⟩
  have hP : r + p.val < 50000 := by have := p.isLt; omega
  obtain ⟨P, Q, rfl⟩ : ∃ (P : Fin 50000) (Q : Fin 128), i = ix2 P Q := ⟨i 0, i 1, eq_ix2 i⟩
  obtain rfl : P = ⟨r + p.val, hP⟩ := Fin.ext hi0
  obtain rfl : Q = q := Fin.ext hi1
  rw [lsm_pay_apply]
  have hm : lsmBlkMax (fun j => x0 j + x1 (ix2 (0 : Fin 1) (⟨(j 1).val, (j 1).isLt⟩ : Fin 128))) p
      = GraphConv.rowMax (fun j => A j + b (ix1 (⟨(j 1).val, (j 1).isLt⟩ : Fin 128))) ⟨r + p.val, hP⟩ := by
    unfold lsmBlkMax GraphConv.rowMax
    congr 1
    funext k
    show x0 (ix2 p k) + x1 (ix2 (0 : Fin 1) k) = A (ix2 ⟨r + p.val, hP⟩ k) + b (ix1 k)
    rw [h0, h1]
  rw [hm]
  simp only [h0, h1]
  rfl

/-- The row-blocked input window's block at point t is rows 5000·t … 5000·t + 4999 of its array. -/
theorem lsm_in_block (c : Dev nD) (t : Fin cfg2.N) (x : S5000x128.Idx) (k : S50000x128.Idx)
    (hk0 : (k 0).val = 5000 * t.val + (x 0).val) (hk1 : (k 1).val = (x 1).val) :
    (iblk2 V c 0 t : Vec Ideal S5000x128 .f32) x = (V c main_v60 : S50000x128.Idx → EReal) k := by
  obtain ⟨e0, e1, -⟩ := lsm_idx_facts t
  unfold iblk2
  rw [View.read_apply]
  show V c main_v60 _ = V c main_v60 _
  congr 1
  funext a
  apply Fin.ext
  match a with
  | ⟨0, _⟩ => show win2_0.index t 0 * 5000 + 1 * (x 0).val = (k 0).val; rw [e0, hk0]; omega
  | ⟨1, _⟩ => show win2_0.index t 1 * 128 + 1 * (x 1).val = (k 1).val; rw [e1, hk1]; omega

/-- The bias window's block at every point is its whole [1,128] array. -/
theorem lsm_bias_block (c : Dev nD) (t : Fin cfg2.N) (x : S1x128.Idx) :
    (iblk2 V c 1 t : Vec Ideal S1x128 .f32) x = (V c main_v61 : S1x128.Idx → EReal) x := by
  obtain ⟨-, -, e2, e3, -⟩ := lsm_idx_facts t
  unfold iblk2
  rw [View.read_apply]
  show V c main_v61 _ = V c main_v61 _
  congr 1
  funext a
  apply Fin.ext
  match a with
  | ⟨0, _⟩ => show win2_1.index t 0 * 1 + 1 * (x 0).val = (x 0).val; rw [e2]; omega
  | ⟨1, _⟩ => show win2_1.index t 1 * 128 + 1 * (x 1).val = (x 1).val; rw [e3]; omega

/-- WHAT POINT t WRITES BACK is block t of log_softmax (main_v60 + b). -/
theorem lsm_flushed_eq (c : Dev nD) (b : (⟨S128, .f32⟩ : BufTy).Contents (Elt Ideal))
    (hb : V c main_v61 = shapeCast _ b shapeCasts_S128_S1x128) (t : Fin cfg2.N) :
    (dat2 (F := Ideal) V c).flushed 2 t = ((cfg2.win 2).blk t).view.read (Elt Ideal) (GraphConv.logSoftmax (V c main_v60) b) := by
  show (cfg2.win 2).cut (grid2.coords t) ((dat2 V c).after 2 t) = _
  rw [after2_2]
  unfold out2_2
  rw [View.canon_unit_zero lsm_hz]
  simp only [View.ld_unit_zero (S := S5000x128) lsm_hz, View.ld_unit_zero (S := S1x128) lsm_hz]
  have ht : t.val < 10 := lt_of_lt_of_eq t.isLt N_2
  obtain ⟨-, -, -, -, e4, e5⟩ := lsm_idx_facts t
  funext j
  refine lsm_block_eq (iblk2 V c 0 t) (iblk2 V c 1 t) (V c main_v60) b (5000 * t.val) (by omega)
    (fun p k => lsm_in_block V c t (ix2 p k) _ rfl rfl) (fun k => ?_) j (((cfg2.win 2).blk t).view.emb j) ?_ ?_
  · rw [lsm_bias_block V c t, hb]
    exact shapeCast_a_1a_apply b _ 0 k
  · show win2_2.index t 0 * 5000 + 1 * (j 0).val = 5000 * t.val + (j 0).val
    rw [e4]; omega
  · show win2_2.index t 1 * 128 + 1 * (j 1).val = (j 1).val
    rw [e5]; omega

/-- An index of the array is in point t's block iff each coordinate is in the block's range on its axis. -/
theorem lsm_mem_blk (t : Fin cfg2.N) (i : S50000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v62).slice (win2_2.rect t)).set ↔ _
  rw [View.set_slice_whole, Rect.mem_set_unit]
  exact Iff.rfl

/-- Row r of the array is in the block of point r / 5000. -/
theorem lsm_cover (i : S50000x128.Idx) : ∃ t : Fin cfg2.N, (cfg2.win 2).flush t = true ∧ i ∈ ((cfg2.win 2).blk t).view.set := by
  have hi0 : (i 0).val < 50000 := (i 0).isLt
  have hi1 : (i 1).val < 128 := (i 1).isLt
  refine ⟨⟨(i 0).val / 5000, by rw [show cfg2.N = 10 from N_2]; omega⟩, flush2_2 _, ?_⟩
  rw [lsm_mem_blk]
  obtain ⟨-, -, -, -, e4, e5⟩ := lsm_idx_facts ⟨(i 0).val / 5000, by rw [show cfg2.N = 10 from N_2]; omega⟩
  intro a
  match a with
  | ⟨0, _⟩ =>
    show win2_2.index _ 0 * 5000 ≤ (i 0).val ∧ (i 0).val < win2_2.index _ 0 * 5000 + 5000
    rw [e4]; show (i 0).val / 5000 * 5000 ≤ (i 0).val ∧ (i 0).val < (i 0).val / 5000 * 5000 + 5000; omega
  | ⟨1, _⟩ =>
    show win2_2.index _ 1 * 128 ≤ (i 1).val ∧ (i 1).val < win2_2.index _ 1 * 128 + 128
    rw [e5]; omega

/-- Launch 2's output array after all its write-backs, for ANY entry contents V whose [1,128] bias window holds the [128] bias b recast. (Windows: 0 ↦ main_v60 row-blocked, 1 ↦ main_v61 the [1,128] bias, one whole block, 2 ↦ the output main_v62.) -/
theorem logSoftmax_array (c : Dev nD) (b : (⟨S128, .f32⟩ : BufTy).Contents (Elt Ideal))
    (hb : V c main_v61 = shapeCast _ b shapeCasts_S128_S1x128) :
    (dat2 (F := Ideal) V c).arrAt 2 cfg2.N = GraphConv.logSoftmax (V c main_v60) b :=
  (dat2 (F := Ideal) V c).arrAt_eq_of_cover 2 (GraphConv.logSoftmax (V c main_v60) b) (fun t _ => lsm_flushed_eq V c b hb t) lsm_cover

end Cert.KernelIdeal.Layers

namespace Cert.ReferenceIdeal.Layers
open Cert.ReferenceIdeal Idealize.ShloMosaic Idealize.ShloMosaic.ValueIdx

/-- The index over row P whose column coordinate is k. -/
theorem lsm_lift_row (h : S50000x128.Reduces [1] S50000) (P : Fin 50000) (k : Fin 128) : h.lift (ix1 P) k = ix2 P k := by
  funext c
  match c with
  | ⟨0, _⟩ => exact Fin.ext rfl
  | ⟨1, _⟩ => exact Fin.ext rfl

/-- −∞ is below every extended real. -/
theorem lsm_max_negInf (y : EReal) : max (Ideal.ofBits .f32 0xFF800000#32) y = y := by simp [Ideal.ofBits, Ideal.ieee]

/-- The host's reduce with a maximum body over the columns, from an initial value that is −∞, at row P: the fold of max over the row. -/
theorem lsm_host_rowMax (Y : FVec Ideal S50000x128 .f32) (init : FVec Ideal S_ .f32) (h' : S50000x128.ReducesTo [1] S50000) (h : S50000x128.Reduces [1] S50000)
    (hu : 0 < S_.numel) (hinit : init (Shape.Idx.first hu) = FloatOps.ofBits (F := Ideal) .f32 0xFF800000#32) (P : Fin 50000) :
    Host.reduce (FloatOps.maximumf (F := Ideal) (φ := .f32)) Y init h' hu (ix1 P)
      = (Finset.univ : Finset (Fin 128)).fold max (FloatOps.ofBits (F := Ideal) .f32 0xFF800000#32) (fun k => Y (ix2 P k)) := by
  refine (Host.reduce_eq_fold_single FloatOps.maximumf Y init h' h hu (ix1 P)).trans ?_
  rw [hinit]
  have hf : (Y ∘ h.lift (ix1 P)) = fun k : Fin 128 => Y (ix2 P k) := funext fun k => congrArg Y (lsm_lift_row h P k)
  exact congrArg (fun f => Finset.fold max (FloatOps.ofBits (F := Ideal) .f32 0xFF800000#32) f (Finset.univ : Finset (Fin 128))) hf

/-- Stage 91, the aggregate plus the bias broadcast down the rows, at an index. -/
theorem lsm_biased_stage (x0 : (⟨S50000x128, .f32⟩ : BufTy).Contents (Elt Ideal)) (x1 : (⟨S2x800000, .i32⟩ : BufTy).Contents (Elt Ideal))
    (x2 : (⟨S128x128, .f32⟩ : BufTy).Contents (Elt Ideal)) (x3 : (⟨S128, .f32⟩ : BufTy).Contents (Elt Ideal)) (x4 : (⟨S128x128, .f32⟩ : BufTy).Contents (Elt Ideal))
    (x5 : (⟨S128, .f32⟩ : BufTy).Contents (Elt Ideal)) (A : (⟨S50000x128, .f32⟩ : BufTy).Contents (Elt Ideal)) (hA : ReadP.val_main_v88 (F := Ideal) x0 x1 x2 x3 x4 = A) (j : S50000x128.Idx) :
    ReadP.val_main_v91 (F := Ideal) x0 x1 x2 x3 x4 x5 j = A j + x5 (ix1 (⟨(j 1).val, (j 1).isLt⟩ : Fin 128)) := by
  rw [ReadP.val_main_v91_apply, ReadP.val_main_v90_apply, ReadP.val_main_v89_apply, hA]
  exact congrArg (fun z => A j + x5 z) (funext fun a => match a with | ⟨0, _⟩ => rfl)

/-- The row maximum: the host's reduce from −∞, then the maximum with −∞ (the identity). -/
theorem lsm_max_stage (x0 : (⟨S50000x128, .f32⟩ : BufTy).Contents (Elt Ideal)) (x1 : (⟨S2x800000, .i32⟩ : BufTy).Contents (Elt Ideal))
    (x2 : (⟨S128x128, .f32⟩ : BufTy).Contents (Elt Ideal)) (x3 : (⟨S128, .f32⟩ : BufTy).Contents (Elt Ideal)) (x4 : (⟨S128x128, .f32⟩ : BufTy).Contents (Elt Ideal))
    (x5 : (⟨S128, .f32⟩ : BufTy).Contents (Elt Ideal)) (A : (⟨S50000x128, .f32⟩ : BufTy).Contents (Elt Ideal)) (h : S50000x128.Reduces [1] S50000)
    (hy : ∀ j : S50000x128.Idx, ReadP.val_main_v91 (F := Ideal) x0 x1 x2 x3 x4 x5 j = A j + x5 (ix1 (⟨(j 1).val, (j 1).isLt⟩ : Fin 128)))
    (P : Fin 50000) : ReadP.val_main_call3_v2 (F := Ideal) x0 x1 x2 x3 x4 x5 (ix1 P)
      = GraphConv.rowMax (fun j => A j + x5 (ix1 (⟨(j 1).val, (j 1).isLt⟩ : Fin 128))) P := by
  rw [ReadP.val_main_call3_v2_apply, ReadP.val_main_call3_v1_apply, ReadP.val_main_call3_cst_0_apply]
  refine (lsm_max_negInf _).trans ?_
  unfold ReadP.val_main_call3_v0
  refine (lsm_host_rowMax _ _ _ h _ (ReadP.val_main_call3_cst_apply _) P).trans ?_
  unfold GraphConv.rowMax
  exact congrArg (fun f => Finset.fold max (FloatOps.ofBits (F := Ideal) .f32 0xFF800000#32) f (Finset.univ : Finset (Fin 128))) (funext fun k => hy (ix2 P k))

/-- The centred entry z = y − M at (P, k). -/
theorem lsm_centred_stage (x0 : (⟨S50000x128, .f32⟩ : BufTy).Contents (Elt Ideal)) (x1 : (⟨S2x800000, .i32⟩ : BufTy).Contents (Elt Ideal))
    (x2 : (⟨S128x128, .f32⟩ : BufTy).Contents (Elt Ideal)) (x3 : (⟨S128, .f32⟩ : BufTy).Contents (Elt Ideal)) (x4 : (⟨S128x128, .f32⟩ : BufTy).Contents (Elt Ideal))
    (x5 : (⟨S128, .f32⟩ : BufTy).Contents (Elt Ideal)) (A : (⟨S50000x128, .f32⟩ : BufTy).Contents (Elt Ideal)) (h : S50000x128.Reduces [1] S50000)
    (hy : ∀ j : S50000x128.Idx, ReadP.val_main_v91 (F := Ideal) x0 x1 x2 x3 x4 x5 j = A j + x5 (ix1 (⟨(j 1).val, (j 1).isLt⟩ : Fin 128)))
    (P : Fin 50000) (k : Fin 128) : ReadP.val_main_call3_v5 (F := Ideal) x0 x1 x2 x3 x4 x5 (ix2 P k)
      = (A (ix2 P k) + x5 (ix1 k)) - GraphConv.rowMax (fun j => A j + x5 (ix1 (⟨(j 1).val, (j 1).isLt⟩ : Fin 128))) P := by
  have e : ReadP.idx_main_call3_v3 (ReadP.idx_main_call3_v4 (ix2 P k)) = ix1 P := funext fun a => match a with | ⟨0, _⟩ => rfl
  rw [ReadP.val_main_call3_v5_apply, ReadP.val_main_call3_v4_apply, ReadP.val_main_call3_v3_apply, hy, e, lsm_max_stage x0 x1 x2 x3 x4 x5 A h hy P]
  rfl

/-- The reference's log_softmax of (aggregate + bias) is the same function of the aggregate (stage 88) and the bias. -/
theorem logSoftmax_stage (x0 : (⟨S50000x128, .f32⟩ : BufTy).Contents (Elt Ideal)) (x1 : (⟨S2x800000, .i32⟩ : BufTy).Contents (Elt Ideal))
    (x2 : (⟨S128x128, .f32⟩ : BufTy).Contents (Elt Ideal)) (x3 : (⟨S128, .f32⟩ : BufTy).Contents (Elt Ideal)) (x4 : (⟨S128x128, .f32⟩ : BufTy).Contents (Elt Ideal))
    (x5 : (⟨S128, .f32⟩ : BufTy).Contents (Elt Ideal)) :
    ReadP.val_main_v92 (F := Ideal) x0 x1 x2 x3 x4 x5 = GraphConv.logSoftmax (ReadP.val_main_v88 (F := Ideal) x0 x1 x2 x3 x4) x5 := by
  generalize hA : ReadP.val_main_v88 (F := Ideal) x0 x1 x2 x3 x4 = A
  have h : S50000x128.Reduces [1] S50000 := by decide
  have hy := lsm_biased_stage x0 x1 x2 x3 x4 x5 A hA
  funext i
  obtain ⟨P, Q, rfl⟩ : ∃ (P : Fin 50000) (Q : Fin 128), i = ix2 P Q := ⟨i 0, i 1, eq_ix2 i⟩
  have hz := lsm_centred_stage x0 x1 x2 x3 x4 x5 A h hy P
  have e8 : ReadP.idx_main_call3_v8 (ReadP.idx_main_call3_v10 (ix2 P Q)) = ix1 P := funext fun a => match a with | ⟨0, _⟩ => rfl
  have e7 : ∀ k : Fin 128, ReadP.idx_main_call3_v7 (ix1 P) k = ix2 P k := fun k => funext fun a => match a with | ⟨0, _⟩ => rfl | ⟨1, _⟩ => rfl
  rw [ReadP.val_main_v92_apply, hz, ReadP.val_main_call3_v10_apply, ReadP.val_main_call3_v9_apply, ReadP.val_main_call3_v8_apply, e8,
    ReadP.val_main_call3_v7_apply, ReadP.val_main_call3_cst_1_apply]
  have hs : (∑ k : Fin 128, ReadP.val_main_call3_v6 (F := Ideal) x0 x1 x2 x3 x4 x5 (ReadP.idx_main_call3_v7 (ix1 P) k))
      = ∑ k : Fin 128, FloatOps.exp (F := Ideal) (φ := .f32)
          ((A (ix2 P k) + x5 (ix1 k)) - GraphConv.rowMax (fun j => A j + x5 (ix1 (⟨(j 1).val, (j 1).isLt⟩ : Fin 128))) P) :=
    Finset.sum_congr rfl fun k _ => by
      rw [e7 k, ReadP.val_main_call3_v6_apply, hz k]
      rfl
  rw [hs, show FloatOps.ofBits (F := Ideal) .f32 0x00000000#32 = 0 from Ideal.ofBits_zero_f32, zero_add]
  rfl
end Cert.ReferenceIdeal.Layers

end
-- ==== Proof.RefPieces.lean ====
/-
  The reference program's straight line of 137 host operations, cut in thirteen consecutive pieces: the two endpoint
  lists with their self-loops; the first dense product; the inverse square roots of the degrees, then the first layer's
  edge weights; the first propagation; the bias and the rectifier, then the second dense product; the same two pieces
  for the second layer's edge weights; the second propagation; the bias; the rows' maxima; the rest of the log-softmax.
  An operation of an outlined function is spelt here as the plain operation it is (the same function between the same
  buffers), except the rows' maxima, kept as printed. The contents after the whole line are the contents after the
  pieces, one after the other.
-/
import proofs.«105155_j75814762709760_2_alg».proof.Proof.RefRun
import Idealize.ShloMosaic.Lib.StableHlo.Run
import Idealize.ShloMosaic.Lib.Pipeline.Frame

set_option maxRecDepth 16384

noncomputable section

namespace Cert.ReferenceIdeal.Fold

open Cert.ReferenceIdeal Cert.ReferenceIdeal.Gen Idealize.ShloMosaic Idealize.ShloMosaic.TcCoe Idealize.SL.Sem Idealize.ShloMosaic.StableHlo

variable {F : FTy → Type} [FloatOps F]

/-- Operations 1 … 7 of the 137. -/
abbrev cA : List (HloOp τ sig (Elt F)) :=
  [ nullary main_v0 (iotaInDim S50000 32 0),
    unary main_arg1 main_v1 ((extractStridedSlice S1x800000 ![0, 0] · slices_S2x800000_S1x800000_0_0) : (⟨S2x800000, .i32⟩ : BufTy).Contents (Elt F) → (⟨S1x800000, .i32⟩ : BufTy).Contents (Elt F)),
    reshape main_v1 main_v2 rfl shapeCasts_S1x800000_S800000,
    binary main_v2 main_v0 main_v3 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    unary main_arg1 main_v4 ((extractStridedSlice S1x800000 ![1, 0] · slices_S2x800000_S1x800000_1_0) : (⟨S2x800000, .i32⟩ : BufTy).Contents (Elt F) → (⟨S1x800000, .i32⟩ : BufTy).Contents (Elt F)),
    reshape main_v4 main_v5 rfl shapeCasts_S1x800000_S800000,
    binary main_v5 main_v0 main_v6 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)) ]

/-- Operations 8 … 8 of the 137. -/
abbrev cB : List (HloOp τ sig (Elt F)) :=
  [ binary main_arg0 main_arg2 main_v7 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)) ]

/-- Operations 9 … 25 of the 137. -/
abbrev cC1 : List (HloOp τ sig (Elt F)) :=
  [ nullary main_cst (constant S_ .f32 0x3F800000#32),
    unary main_cst main_v8 (broadcastInDim S850000 ![] bcast_S_S850000 : (⟨S_, .f32⟩ : BufTy).Contents (Elt F) → (⟨S850000, .f32⟩ : BufTy).Contents (Elt F)),
    nullary main_cst_0 (constant S_ .f32 0x00000000#32),
    unary main_cst_0 main_v9 (broadcastInDim S50000 ![] bcast_S_S50000 : (⟨S_, .f32⟩ : BufTy).Contents (Elt F) → (⟨S50000, .f32⟩ : BufTy).Contents (Elt F)),
    unary main_v6 main_v10 (broadcastInDim S850000x1 ![0] bcast_S850000_S850000x1_0 : (⟨S850000, .i32⟩ : BufTy).Contents (Elt F) → (⟨S850000x1, .i32⟩ : BufTy).Contents (Elt F)),
    ternary main_v9 main_v10 main_v8 main_v11 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    nullary main_cst_1 (constant S_ .f32 0x00000000#32),
    unary main_cst_1 main_v12 (broadcastInDim S50000 ![] bcast_S_S50000 : (⟨S_, .f32⟩ : BufTy).Contents (Elt F) → (⟨S50000, .f32⟩ : BufTy).Contents (Elt F)),
    binary main_v11 main_v12 main_v13 (cmpf .ogt : (⟨S50000, .f32⟩ : BufTy).Contents (Elt F) → (⟨S50000, .f32⟩ : BufTy).Contents (Elt F) → (⟨S50000, .i1⟩ : BufTy).Contents (Elt F)),
    nullary main_cst_2 (constant S_ .f32 0x2B8CBCCC#32),
    unary main_cst_2 main_v14 (broadcastInDim S50000 ![] bcast_S_S50000 : (⟨S_, .f32⟩ : BufTy).Contents (Elt F) → (⟨S50000, .f32⟩ : BufTy).Contents (Elt F)),
    binary main_v11 main_v14 main_v15 (maximumf : (⟨S50000, .f32⟩ : BufTy).Contents (Elt F) → (⟨S50000, .f32⟩ : BufTy).Contents (Elt F) → (⟨S50000, .f32⟩ : BufTy).Contents (Elt F)),
    unary main_v15 main_v16 (Host.rsqrt : (⟨S50000, .f32⟩ : BufTy).Contents (Elt F) → (⟨S50000, .f32⟩ : BufTy).Contents (Elt F)),
    nullary main_cst_3 (constant S_ .f32 0x00000000#32),
    unary main_cst_3 main_call0_v0 ((id) : (⟨S_, .f32⟩ : BufTy).Contents (Elt F) → (⟨S_, .f32⟩ : BufTy).Contents (Elt F)),
    unary main_call0_v0 main_call0_v1 ((broadcastInDim S50000 ![] bcast_S_S50000) : (⟨S_, .f32⟩ : BufTy).Contents (Elt F) → (⟨S50000, .f32⟩ : BufTy).Contents (Elt F)),
    ternary main_v13 main_v16 main_call0_v1 main_v17 ((select) : (⟨S50000, .i1⟩ : BufTy).Contents (Elt F) → (⟨S50000, .f32⟩ : BufTy).Contents (Elt F) → (⟨S50000, .f32⟩ : BufTy).Contents (Elt F) → (⟨S50000, .f32⟩ : BufTy).Contents (Elt F)) ]

/-- Operations 26 … 44 of the 137. -/
abbrev cC2 : List (HloOp τ sig (Elt F)) :=
  [ nullary main_c (constantI S_ 32 0#32),
    unary main_c main_v18 (broadcastInDim S850000 ![] bcast_S_S850000 : (⟨S_, .i32⟩ : BufTy).Contents (Elt F) → (⟨S850000, .i32⟩ : BufTy).Contents (Elt F)),
    binary main_v3 main_v18 main_v19 (cmpi .slt : (⟨S850000, .i32⟩ : BufTy).Contents (Elt F) → (⟨S850000, .i32⟩ : BufTy).Contents (Elt F) → (⟨S850000, .i1⟩ : BufTy).Contents (Elt F)),
    nullary main_c_4 (constantI S_ 32 50000#32),
    unary main_c_4 main_v20 (broadcastInDim S850000 ![] bcast_S_S850000 : (⟨S_, .i32⟩ : BufTy).Contents (Elt F) → (⟨S850000, .i32⟩ : BufTy).Contents (Elt F)),
    binary main_v3 main_v20 main_v21 (addi : (⟨S850000, .i32⟩ : BufTy).Contents (Elt F) → (⟨S850000, .i32⟩ : BufTy).Contents (Elt F) → (⟨S850000, .i32⟩ : BufTy).Contents (Elt F)),
    ternary main_v19 main_v21 main_v3 main_v22 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v22 main_v23 (broadcastInDim S850000x1 ![0] bcast_S850000_S850000x1_0 : (⟨S850000, .i32⟩ : BufTy).Contents (Elt F) → (⟨S850000x1, .i32⟩ : BufTy).Contents (Elt F)),
    binary main_v17 main_v23 main_v24 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    nullary main_c_5 (constantI S_ 32 0#32),
    unary main_c_5 main_v25 (broadcastInDim S850000 ![] bcast_S_S850000 : (⟨S_, .i32⟩ : BufTy).Contents (Elt F) → (⟨S850000, .i32⟩ : BufTy).Contents (Elt F)),
    binary main_v6 main_v25 main_v26 (cmpi .slt : (⟨S850000, .i32⟩ : BufTy).Contents (Elt F) → (⟨S850000, .i32⟩ : BufTy).Contents (Elt F) → (⟨S850000, .i1⟩ : BufTy).Contents (Elt F)),
    nullary main_c_6 (constantI S_ 32 50000#32),
    unary main_c_6 main_v27 (broadcastInDim S850000 ![] bcast_S_S850000 : (⟨S_, .i32⟩ : BufTy).Contents (Elt F) → (⟨S850000, .i32⟩ : BufTy).Contents (Elt F)),
    binary main_v6 main_v27 main_v28 (addi : (⟨S850000, .i32⟩ : BufTy).Contents (Elt F) → (⟨S850000, .i32⟩ : BufTy).Contents (Elt F) → (⟨S850000, .i32⟩ : BufTy).Contents (Elt F)),
    ternary main_v26 main_v28 main_v6 main_v29 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v29 main_v30 (broadcastInDim S850000x1 ![0] bcast_S850000_S850000x1_0 : (⟨S850000, .i32⟩ : BufTy).Contents (Elt F) → (⟨S850000x1, .i32⟩ : BufTy).Contents (Elt F)),
    binary main_v17 main_v30 main_v31 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v24 main_v31 main_v32 (mulf : (⟨S850000, .f32⟩ : BufTy).Contents (Elt F) → (⟨S850000, .f32⟩ : BufTy).Contents (Elt F) → (⟨S850000, .f32⟩ : BufTy).Contents (Elt F)) ]

/-- Operations 45 … 60 of the 137. -/
abbrev cD : List (HloOp τ sig (Elt F)) :=
  [ nullary main_c_7 (constantI S_ 32 0#32),
    unary main_c_7 main_v33 (broadcastInDim S850000 ![] bcast_S_S850000 : (⟨S_, .i32⟩ : BufTy).Contents (Elt F) → (⟨S850000, .i32⟩ : BufTy).Contents (Elt F)),
    binary main_v3 main_v33 main_v34 (cmpi .slt : (⟨S850000, .i32⟩ : BufTy).Contents (Elt F) → (⟨S850000, .i32⟩ : BufTy).Contents (Elt F) → (⟨S850000, .i1⟩ : BufTy).Contents (Elt F)),
    nullary main_c_8 (constantI S_ 32 50000#32),
    unary main_c_8 main_v35 (broadcastInDim S850000 ![] bcast_S_S850000 : (⟨S_, .i32⟩ : BufTy).Contents (Elt F) → (⟨S850000, .i32⟩ : BufTy).Contents (Elt F)),
    binary main_v3 main_v35 main_v36 (addi : (⟨S850000, .i32⟩ : BufTy).Contents (Elt F) → (⟨S850000, .i32⟩ : BufTy).Contents (Elt F) → (⟨S850000, .i32⟩ : BufTy).Contents (Elt F)),
    ternary main_v34 main_v36 main_v3 main_v37 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v37 main_v38 (broadcastInDim S850000x1 ![0] bcast_S850000_S850000x1_0 : (⟨S850000, .i32⟩ : BufTy).Contents (Elt F) → (⟨S850000x1, .i32⟩ : BufTy).Contents (Elt F)),
    binary main_v7 main_v38 main_v39 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    unary main_v32 main_v40 (broadcastInDim S850000x1 ![0] bcast_S850000_S850000x1_0 : (⟨S850000, .f32⟩ : BufTy).Contents (Elt F) → (⟨S850000x1, .f32⟩ : BufTy).Contents (Elt F)),
    unary main_v40 main_v41 (broadcastInDim S850000x128 ![0, 1] bcast_S850000x1_S850000x128_0_1 : (⟨S850000x1, .f32⟩ : BufTy).Contents (Elt F) → (⟨S850000x128, .f32⟩ : BufTy).Contents (Elt F)),
    binary main_v39 main_v41 main_v42 (mulf : (⟨S850000x128, .f32⟩ : BufTy).Contents (Elt F) → (⟨S850000x128, .f32⟩ : BufTy).Contents (Elt F) → (⟨S850000x128, .f32⟩ : BufTy).Contents (Elt F)),
    nullary main_cst_9 (constant S_ .f32 0x00000000#32),
    unary main_cst_9 main_v43 (broadcastInDim S50000x128 ![] bcast_S_S50000x128 : (⟨S_, .f32⟩ : BufTy).Contents (Elt F) → (⟨S50000x128, .f32⟩ : BufTy).Contents (Elt F)),
    unary main_v6 main_v44 (broadcastInDim S850000x1 ![0] bcast_S850000_S850000x1_0 : (⟨S850000, .i32⟩ : BufTy).Contents (Elt F) → (⟨S850000x1, .i32⟩ : BufTy).Contents (Elt F)),
    ternary main_v43 main_v44 main_v42 main_v45 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)) ]

/-- Operations 61 … 66 of the 137. -/
abbrev cE1 : List (HloOp τ sig (Elt F)) :=
  [ unary main_arg3 main_v46 (broadcastInDim S1x128 ![1] bcast_S128_S1x128_1 : (⟨S128, .f32⟩ : BufTy).Contents (Elt F) → (⟨S1x128, .f32⟩ : BufTy).Contents (Elt F)),
    unary main_v46 main_v47 (broadcastInDim S50000x128 ![0, 1] bcast_S1x128_S50000x128_0_1 : (⟨S1x128, .f32⟩ : BufTy).Contents (Elt F) → (⟨S50000x128, .f32⟩ : BufTy).Contents (Elt F)),
    binary main_v45 main_v47 main_v48 (addf : (⟨S50000x128, .f32⟩ : BufTy).Contents (Elt F) → (⟨S50000x128, .f32⟩ : BufTy).Contents (Elt F) → (⟨S50000x128, .f32⟩ : BufTy).Contents (Elt F)),
    nullary main_call1_cst ((constant S_ .f32 0x00000000#32) : (⟨S_, .f32⟩ : BufTy).Contents (Elt F)),
    unary main_call1_cst main_call1_v0 ((broadcastInDim S50000x128 ![] bcast_S_S50000x128) : (⟨S_, .f32⟩ : BufTy).Contents (Elt F) → (⟨S50000x128, .f32⟩ : BufTy).Contents (Elt F)),
    binary main_v48 main_call1_v0 main_v49 ((maximumf) : (⟨S50000x128, .f32⟩ : BufTy).Contents (Elt F) → (⟨S50000x128, .f32⟩ : BufTy).Contents (Elt F) → (⟨S50000x128, .f32⟩ : BufTy).Contents (Elt F)) ]

/-- Operations 67 … 67 of the 137. -/
abbrev cE2 : List (HloOp τ sig (Elt F)) :=
  [ binary main_v49 main_arg4 main_v50 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)) ]

/-- Operations 68 … 84 of the 137. -/
abbrev cF1 : List (HloOp τ sig (Elt F)) :=
  [ nullary main_cst_10 (constant S_ .f32 0x3F800000#32),
    unary main_cst_10 main_v51 (broadcastInDim S850000 ![] bcast_S_S850000 : (⟨S_, .f32⟩ : BufTy).Contents (Elt F) → (⟨S850000, .f32⟩ : BufTy).Contents (Elt F)),
    nullary main_cst_11 (constant S_ .f32 0x00000000#32),
    unary main_cst_11 main_v52 (broadcastInDim S50000 ![] bcast_S_S50000 : (⟨S_, .f32⟩ : BufTy).Contents (Elt F) → (⟨S50000, .f32⟩ : BufTy).Contents (Elt F)),
    unary main_v6 main_v53 (broadcastInDim S850000x1 ![0] bcast_S850000_S850000x1_0 : (⟨S850000, .i32⟩ : BufTy).Contents (Elt F) → (⟨S850000x1, .i32⟩ : BufTy).Contents (Elt F)),
    ternary main_v52 main_v53 main_v51 main_v54 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    nullary main_cst_12 (constant S_ .f32 0x00000000#32),
    unary main_cst_12 main_v55 (broadcastInDim S50000 ![] bcast_S_S50000 : (⟨S_, .f32⟩ : BufTy).Contents (Elt F) → (⟨S50000, .f32⟩ : BufTy).Contents (Elt F)),
    binary main_v54 main_v55 main_v56 (cmpf .ogt : (⟨S50000, .f32⟩ : BufTy).Contents (Elt F) → (⟨S50000, .f32⟩ : BufTy).Contents (Elt F) → (⟨S50000, .i1⟩ : BufTy).Contents (Elt F)),
    nullary main_cst_13 (constant S_ .f32 0x2B8CBCCC#32),
    unary main_cst_13 main_v57 (broadcastInDim S50000 ![] bcast_S_S50000 : (⟨S_, .f32⟩ : BufTy).Contents (Elt F) → (⟨S50000, .f32⟩ : BufTy).Contents (Elt F)),
    binary main_v54 main_v57 main_v58 (maximumf : (⟨S50000, .f32⟩ : BufTy).Contents (Elt F) → (⟨S50000, .f32⟩ : BufTy).Contents (Elt F) → (⟨S50000, .f32⟩ : BufTy).Contents (Elt F)),
    unary main_v58 main_v59 (Host.rsqrt : (⟨S50000, .f32⟩ : BufTy).Contents (Elt F) → (⟨S50000, .f32⟩ : BufTy).Contents (Elt F)),
    nullary main_cst_14 (constant S_ .f32 0x00000000#32),
    unary main_cst_14 main_call2_v0 ((id) : (⟨S_, .f32⟩ : BufTy).Contents (Elt F) → (⟨S_, .f32⟩ : BufTy).Contents (Elt F)),
    unary main_call2_v0 main_call2_v1 ((broadcastInDim S50000 ![] bcast_S_S50000) : (⟨S_, .f32⟩ : BufTy).Contents (Elt F) → (⟨S50000, .f32⟩ : BufTy).Contents (Elt F)),
    ternary main_v56 main_v59 main_call2_v1 main_v60 ((select) : (⟨S50000, .i1⟩ : BufTy).Contents (Elt F) → (⟨S50000, .f32⟩ : BufTy).Contents (Elt F) → (⟨S50000, .f32⟩ : BufTy).Contents (Elt F) → (⟨S50000, .f32⟩ : BufTy).Contents (Elt F)) ]

/-- Operations 85 … 103 of the 137. -/
abbrev cF2 : List (HloOp τ sig (Elt F)) :=
  [ nullary main_c_15 (constantI S_ 32 0#32),
    unary main_c_15 main_v61 (broadcastInDim S850000 ![] bcast_S_S850000 : (⟨S_, .i32⟩ : BufTy).Contents (Elt F) → (⟨S850000, .i32⟩ : BufTy).Contents (Elt F)),
    binary main_v3 main_v61 main_v62 (cmpi .slt : (⟨S850000, .i32⟩ : BufTy).Contents (Elt F) → (⟨S850000, .i32⟩ : BufTy).Contents (Elt F) → (⟨S850000, .i1⟩ : BufTy).Contents (Elt F)),
    nullary main_c_16 (constantI S_ 32 50000#32),
    unary main_c_16 main_v63 (broadcastInDim S850000 ![] bcast_S_S850000 : (⟨S_, .i32⟩ : BufTy).Contents (Elt F) → (⟨S850000, .i32⟩ : BufTy).Contents (Elt F)),
    binary main_v3 main_v63 main_v64 (addi : (⟨S850000, .i32⟩ : BufTy).Contents (Elt F) → (⟨S850000, .i32⟩ : BufTy).Contents (Elt F) → (⟨S850000, .i32⟩ : BufTy).Contents (Elt F)),
    ternary main_v62 main_v64 main_v3 main_v65 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v65 main_v66 (broadcastInDim S850000x1 ![0] bcast_S850000_S850000x1_0 : (⟨S850000, .i32⟩ : BufTy).Contents (Elt F) → (⟨S850000x1, .i32⟩ : BufTy).Contents (Elt F)),
    binary main_v60 main_v66 main_v67 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    nullary main_c_17 (constantI S_ 32 0#32),
    unary main_c_17 main_v68 (broadcastInDim S850000 ![] bcast_S_S850000 : (⟨S_, .i32⟩ : BufTy).Contents (Elt F) → (⟨S850000, .i32⟩ : BufTy).Contents (Elt F)),
    binary main_v6 main_v68 main_v69 (cmpi .slt : (⟨S850000, .i32⟩ : BufTy).Contents (Elt F) → (⟨S850000, .i32⟩ : BufTy).Contents (Elt F) → (⟨S850000, .i1⟩ : BufTy).Contents (Elt F)),
    nullary main_c_18 (constantI S_ 32 50000#32),
    unary main_c_18 main_v70 (broadcastInDim S850000 ![] bcast_S_S850000 : (⟨S_, .i32⟩ : BufTy).Contents (Elt F) → (⟨S850000, .i32⟩ : BufTy).Contents (Elt F)),
    binary main_v6 main_v70 main_v71 (addi : (⟨S850000, .i32⟩ : BufTy).Contents (Elt F) → (⟨S850000, .i32⟩ : BufTy).Contents (Elt F) → (⟨S850000, .i32⟩ : BufTy).Contents (Elt F)),
    ternary main_v69 main_v71 main_v6 main_v72 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v72 main_v73 (broadcastInDim S850000x1 ![0] bcast_S850000_S850000x1_0 : (⟨S850000, .i32⟩ : BufTy).Contents (Elt F) → (⟨S850000x1, .i32⟩ : BufTy).Contents (Elt F)),
    binary main_v60 main_v73 main_v74 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v67 main_v74 main_v75 (mulf : (⟨S850000, .f32⟩ : BufTy).Contents (Elt F) → (⟨S850000, .f32⟩ : BufTy).Contents (Elt F) → (⟨S850000, .f32⟩ : BufTy).Contents (Elt F)) ]

/-- Operations 104 … 119 of the 137. -/
abbrev cG : List (HloOp τ sig (Elt F)) :=
  [ nullary main_c_19 (constantI S_ 32 0#32),
    unary main_c_19 main_v76 (broadcastInDim S850000 ![] bcast_S_S850000 : (⟨S_, .i32⟩ : BufTy).Contents (Elt F) → (⟨S850000, .i32⟩ : BufTy).Contents (Elt F)),
    binary main_v3 main_v76 main_v77 (cmpi .slt : (⟨S850000, .i32⟩ : BufTy).Contents (Elt F) → (⟨S850000, .i32⟩ : BufTy).Contents (Elt F) → (⟨S850000, .i1⟩ : BufTy).Contents (Elt F)),
    nullary main_c_20 (constantI S_ 32 50000#32),
    unary main_c_20 main_v78 (broadcastInDim S850000 ![] bcast_S_S850000 : (⟨S_, .i32⟩ : BufTy).Contents (Elt F) → (⟨S850000, .i32⟩ : BufTy).Contents (Elt F)),
    binary main_v3 main_v78 main_v79 (addi : (⟨S850000, .i32⟩ : BufTy).Contents (Elt F) → (⟨S850000, .i32⟩ : BufTy).Contents (Elt F) → (⟨S850000, .i32⟩ : BufTy).Contents (Elt F)),
    ternary main_v77 main_v79 main_v3 main_v80 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v80 main_v81 (broadcastInDim S850000x1 ![0] bcast_S850000_S850000x1_0 : (⟨S850000, .i32⟩ : BufTy).Contents (Elt F) → (⟨S850000x1, .i32⟩ : BufTy).Contents (Elt F)),
    binary main_v50 main_v81 main_v82 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    unary main_v75 main_v83 (broadcastInDim S850000x1 ![0] bcast_S850000_S850000x1_0 : (⟨S850000, .f32⟩ : BufTy).Contents (Elt F) → (⟨S850000x1, .f32⟩ : BufTy).Contents (Elt F)),
    unary main_v83 main_v84 (broadcastInDim S850000x128 ![0, 1] bcast_S850000x1_S850000x128_0_1 : (⟨S850000x1, .f32⟩ : BufTy).Contents (Elt F) → (⟨S850000x128, .f32⟩ : BufTy).Contents (Elt F)),
    binary main_v82 main_v84 main_v85 (mulf : (⟨S850000x128, .f32⟩ : BufTy).Contents (Elt F) → (⟨S850000x128, .f32⟩ : BufTy).Contents (Elt F) → (⟨S850000x128, .f32⟩ : BufTy).Contents (Elt F)),
    nullary main_cst_21 (constant S_ .f32 0x00000000#32),
    unary main_cst_21 main_v86 (broadcastInDim S50000x128 ![] bcast_S_S50000x128 : (⟨S_, .f32⟩ : BufTy).Contents (Elt F) → (⟨S50000x128, .f32⟩ : BufTy).Contents (Elt F)),
    unary main_v6 main_v87 (broadcastInDim S850000x1 ![0] bcast_S850000_S850000x1_0 : (⟨S850000, .i32⟩ : BufTy).Contents (Elt F) → (⟨S850000x1, .i32⟩ : BufTy).Contents (Elt F)),
    ternary main_v86 main_v87 main_v85 main_v88 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)) ]

/-- Operations 120 … 123 of the 137. -/
abbrev cH1 : List (HloOp τ sig (Elt F)) :=
  [ unary main_arg5 main_v89 (broadcastInDim S1x128 ![1] bcast_S128_S1x128_1 : (⟨S128, .f32⟩ : BufTy).Contents (Elt F) → (⟨S1x128, .f32⟩ : BufTy).Contents (Elt F)),
    unary main_v89 main_v90 (broadcastInDim S50000x128 ![0, 1] bcast_S1x128_S50000x128_0_1 : (⟨S1x128, .f32⟩ : BufTy).Contents (Elt F) → (⟨S50000x128, .f32⟩ : BufTy).Contents (Elt F)),
    binary main_v88 main_v90 main_v91 (addf : (⟨S50000x128, .f32⟩ : BufTy).Contents (Elt F) → (⟨S50000x128, .f32⟩ : BufTy).Contents (Elt F) → (⟨S50000x128, .f32⟩ : BufTy).Contents (Elt F)),
    nullary main_call3_cst ((constant S_ .f32 0xFF800000#32) : (⟨S_, .f32⟩ : BufTy).Contents (Elt F)) ]

/-- Operations 124 … 124 of the 137. -/
abbrev cH2 : List (HloOp τ sig (Elt F)) :=
  [ TRef.binary (TRef.of (T := ⟨S50000x128, .f32⟩) main_v91) (TRef.of (T := ⟨S_, .f32⟩) main_call3_cst) (TRef.of (T := ⟨S50000, .f32⟩) main_call3_v0) (fun x v => Host.reduce FloatOps.maximumf x v reducesTo_S50000x128_S50000_d1 h_S_) ]

/-- Operations 125 … 137 of the 137. -/
abbrev cH3 : List (HloOp τ sig (Elt F)) :=
  [ nullary main_call3_cst_0 ((constant S_ .f32 0xFF800000#32) : (⟨S_, .f32⟩ : BufTy).Contents (Elt F)),
    unary main_call3_cst_0 main_call3_v1 ((broadcastInDim S50000 ![] bcast_S_S50000) : (⟨S_, .f32⟩ : BufTy).Contents (Elt F) → (⟨S50000, .f32⟩ : BufTy).Contents (Elt F)),
    binary main_call3_v1 main_call3_v0 main_call3_v2 ((maximumf) : (⟨S50000, .f32⟩ : BufTy).Contents (Elt F) → (⟨S50000, .f32⟩ : BufTy).Contents (Elt F) → (⟨S50000, .f32⟩ : BufTy).Contents (Elt F)),
    unary main_call3_v2 main_call3_v3 ((broadcastInDim S50000x1 ![0] bcast_S50000_S50000x1_0) : (⟨S50000, .f32⟩ : BufTy).Contents (Elt F) → (⟨S50000x1, .f32⟩ : BufTy).Contents (Elt F)),
    unary main_call3_v3 main_call3_v4 ((broadcastInDim S50000x128 ![0, 1] bcast_S50000x1_S50000x128_0_1) : (⟨S50000x1, .f32⟩ : BufTy).Contents (Elt F) → (⟨S50000x128, .f32⟩ : BufTy).Contents (Elt F)),
    binary main_v91 main_call3_v4 main_call3_v5 ((subf) : (⟨S50000x128, .f32⟩ : BufTy).Contents (Elt F) → (⟨S50000x128, .f32⟩ : BufTy).Contents (Elt F) → (⟨S50000x128, .f32⟩ : BufTy).Contents (Elt F)),
    unary main_call3_v5 main_call3_v6 ((Host.exp) : (⟨S50000x128, .f32⟩ : BufTy).Contents (Elt F) → (⟨S50000x128, .f32⟩ : BufTy).Contents (Elt F)),
    nullary main_call3_cst_1 ((constant S_ .f32 0x00000000#32) : (⟨S_, .f32⟩ : BufTy).Contents (Elt F)),
    binary main_call3_v6 main_call3_cst_1 main_call3_v7 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)),
    unary main_call3_v7 main_call3_v8 ((broadcastInDim S50000x1 ![0] bcast_S50000_S50000x1_0) : (⟨S50000, .f32⟩ : BufTy).Contents (Elt F) → (⟨S50000x1, .f32⟩ : BufTy).Contents (Elt F)),
    unary main_call3_v8 main_call3_v9 ((Host.log) : (⟨S50000x1, .f32⟩ : BufTy).Contents (Elt F) → (⟨S50000x1, .f32⟩ : BufTy).Contents (Elt F)),
    unary main_call3_v9 main_call3_v10 ((broadcastInDim S50000x128 ![0, 1] bcast_S50000x1_S50000x128_0_1) : (⟨S50000x1, .f32⟩ : BufTy).Contents (Elt F) → (⟨S50000x128, .f32⟩ : BufTy).Contents (Elt F)),
    binary main_call3_v5 main_call3_v10 main_v92 ((subf) : (⟨S50000x128, .f32⟩ : BufTy).Contents (Elt F) → (⟨S50000x128, .f32⟩ : BufTy).Contents (Elt F) → (⟨S50000x128, .f32⟩ : BufTy).Contents (Elt F)) ]

/-- The pieces, in order, are the whole list. -/
theorem ops_cut : ValueP.ops (F := F) = cA ++ (cB ++ (cC1 ++ (cC2 ++ (cD ++ (cE1 ++ (cE2 ++ (cF1 ++ (cF2 ++ (cG ++ (cH1 ++ (cH2 ++ (cH3)))))))))))) := rfl

/-- So the contents after the whole list are the contents after the pieces, one after the other. -/
theorem after_ops (W : Valuation τ sig (Elt F)) :
    StableHlo.after (ValueP.ops (F := F)) W
      = StableHlo.after cH3 (StableHlo.after cH2 (StableHlo.after cH1 (StableHlo.after cG (StableHlo.after cF2 (StableHlo.after cF1 (StableHlo.after cE2 (StableHlo.after cE1 (StableHlo.after cD (StableHlo.after cC2 (StableHlo.after cC1 (StableHlo.after cB (StableHlo.after cA (W))))))))))))) := by
  rw [ops_cut]; simp only [StableHlo.after_append]

end Cert.ReferenceIdeal.Fold

end
-- ==== Proof.RefFold.lean ====
/-
  The reference program's run, read piece by piece.

  Each of the thirteen pieces of the reference's straight line, started from ANY buffer contents that hold the stages it
  reads, leaves the stage it produces, and leaves alone the buffers it does not write. Chained from the launch memory, the
  last piece leaves the result's buffer at the last stage, a function of the six argument arrays; no operation writes
  an argument. A stage is the operations' own term (the stages of the reading module), never opened here.
-/
import proofs.«105155_j75814762709760_2_alg».proof.Proof.RefRead
import proofs.«105155_j75814762709760_2_alg».proof.Proof.RefPieces
import Idealize.ShloMosaic.Lib.StableHlo.Run
import Idealize.ShloMosaic.PureOps.Ideal

set_option maxRecDepth 16384

noncomputable section

namespace Cert.ReferenceIdeal.Fold

open Cert.ReferenceIdeal Cert.ReferenceIdeal.Gen Idealize.ShloMosaic Idealize.ShloMosaic.TcCoe Idealize.SL.Sem Idealize.ShloMosaic.StableHlo
open Cert.ReferenceIdeal.ReadP

section Pieces
variable (W : Valuation τ sig (Elt Ideal))
variable {x0 : (⟨S50000x128, .f32⟩ : BufTy).Contents (Elt Ideal)} {x1 : (⟨S2x800000, .i32⟩ : BufTy).Contents (Elt Ideal)} {x2 : (⟨S128x128, .f32⟩ : BufTy).Contents (Elt Ideal)}
  {x3 : (⟨S128, .f32⟩ : BufTy).Contents (Elt Ideal)} {x4 : (⟨S128x128, .f32⟩ : BufTy).Contents (Elt Ideal)} {x5 : (⟨S128, .f32⟩ : BufTy).Contents (Elt Ideal)}

/-! ## The endpoint lists -/
theorem pieceA_src (h_arg1 : W (Proc.devRef .tc main_arg1) = x1) :
    StableHlo.after (cA (F := Ideal)) W (Proc.devRef .tc main_v3) = val_main_v3 (F := Ideal) x1 := by
  subst h_arg1; after_results; rfl
theorem pieceA_dst (h_arg1 : W (Proc.devRef .tc main_arg1) = x1) :
    StableHlo.after (cA (F := Ideal)) W (Proc.devRef .tc main_v6) = val_main_v6 (F := Ideal) x1 := by
  subst h_arg1; after_results; rfl
theorem keepA_arg0 : StableHlo.after (cA (F := Ideal)) W (Proc.devRef .tc main_arg0) = W (Proc.devRef .tc main_arg0) := by after_results_simp
theorem keepA_arg2 : StableHlo.after (cA (F := Ideal)) W (Proc.devRef .tc main_arg2) = W (Proc.devRef .tc main_arg2) := by after_results_simp
theorem keepA_arg3 : StableHlo.after (cA (F := Ideal)) W (Proc.devRef .tc main_arg3) = W (Proc.devRef .tc main_arg3) := by after_results_simp
theorem keepA_arg4 : StableHlo.after (cA (F := Ideal)) W (Proc.devRef .tc main_arg4) = W (Proc.devRef .tc main_arg4) := by after_results_simp
theorem keepA_arg5 : StableHlo.after (cA (F := Ideal)) W (Proc.devRef .tc main_arg5) = W (Proc.devRef .tc main_arg5) := by after_results_simp

/-! ## The first dense product -/
theorem pieceB (h_arg0 : W (Proc.devRef .tc main_arg0) = x0) (h_arg2 : W (Proc.devRef .tc main_arg2) = x2) :
    StableHlo.after (cB (F := Ideal)) W (Proc.devRef .tc main_v7) = val_main_v7 (F := Ideal) x0 x2 := by
  subst h_arg0 h_arg2; after_results; rfl
theorem keepB_v3 : StableHlo.after (cB (F := Ideal)) W (Proc.devRef .tc main_v3) = W (Proc.devRef .tc main_v3) := by after_results_simp
theorem keepB_v6 : StableHlo.after (cB (F := Ideal)) W (Proc.devRef .tc main_v6) = W (Proc.devRef .tc main_v6) := by after_results_simp
theorem keepB_arg3 : StableHlo.after (cB (F := Ideal)) W (Proc.devRef .tc main_arg3) = W (Proc.devRef .tc main_arg3) := by after_results_simp
theorem keepB_arg4 : StableHlo.after (cB (F := Ideal)) W (Proc.devRef .tc main_arg4) = W (Proc.devRef .tc main_arg4) := by after_results_simp
theorem keepB_arg5 : StableHlo.after (cB (F := Ideal)) W (Proc.devRef .tc main_arg5) = W (Proc.devRef .tc main_arg5) := by after_results_simp

/-! ## The first layer's edge weights -/
set_option maxHeartbeats 4000000 in
theorem pieceC1 (h_v6 : W (Proc.devRef .tc main_v6) = val_main_v6 (F := Ideal) x1) :
    StableHlo.after (cC1 (F := Ideal)) W (Proc.devRef .tc main_v17) = val_main_v17 (F := Ideal) x1 := by
  after_results_simp; rw [h_v6]; rfl
theorem keepC1_v3 : StableHlo.after (cC1 (F := Ideal)) W (Proc.devRef .tc main_v3) = W (Proc.devRef .tc main_v3) := by after_results_simp
theorem keepC1_v6 : StableHlo.after (cC1 (F := Ideal)) W (Proc.devRef .tc main_v6) = W (Proc.devRef .tc main_v6) := by after_results_simp
theorem keepC1_v7 : StableHlo.after (cC1 (F := Ideal)) W (Proc.devRef .tc main_v7) = W (Proc.devRef .tc main_v7) := by after_results_simp
theorem keepC1_arg3 : StableHlo.after (cC1 (F := Ideal)) W (Proc.devRef .tc main_arg3) = W (Proc.devRef .tc main_arg3) := by after_results_simp
theorem keepC1_arg4 : StableHlo.after (cC1 (F := Ideal)) W (Proc.devRef .tc main_arg4) = W (Proc.devRef .tc main_arg4) := by after_results_simp
theorem keepC1_arg5 : StableHlo.after (cC1 (F := Ideal)) W (Proc.devRef .tc main_arg5) = W (Proc.devRef .tc main_arg5) := by after_results_simp
set_option maxHeartbeats 4000000 in
theorem pieceC2 (h_v17 : W (Proc.devRef .tc main_v17) = val_main_v17 (F := Ideal) x1) (h_v3 : W (Proc.devRef .tc main_v3) = val_main_v3 (F := Ideal) x1) (h_v6 : W (Proc.devRef .tc main_v6) = val_main_v6 (F := Ideal) x1) :
    StableHlo.after (cC2 (F := Ideal)) W (Proc.devRef .tc main_v32) = val_main_v32 (F := Ideal) x1 := by
  after_results_simp; rw [h_v17, h_v3, h_v6]; rfl
theorem keepC2_v3 : StableHlo.after (cC2 (F := Ideal)) W (Proc.devRef .tc main_v3) = W (Proc.devRef .tc main_v3) := by after_results_simp
theorem keepC2_v6 : StableHlo.after (cC2 (F := Ideal)) W (Proc.devRef .tc main_v6) = W (Proc.devRef .tc main_v6) := by after_results_simp
theorem keepC2_v7 : StableHlo.after (cC2 (F := Ideal)) W (Proc.devRef .tc main_v7) = W (Proc.devRef .tc main_v7) := by after_results_simp
theorem keepC2_arg3 : StableHlo.after (cC2 (F := Ideal)) W (Proc.devRef .tc main_arg3) = W (Proc.devRef .tc main_arg3) := by after_results_simp
theorem keepC2_arg4 : StableHlo.after (cC2 (F := Ideal)) W (Proc.devRef .tc main_arg4) = W (Proc.devRef .tc main_arg4) := by after_results_simp
theorem keepC2_arg5 : StableHlo.after (cC2 (F := Ideal)) W (Proc.devRef .tc main_arg5) = W (Proc.devRef .tc main_arg5) := by after_results_simp

/-! ## The first propagation -/
set_option maxHeartbeats 4000000 in
theorem pieceD (h_v7 : W (Proc.devRef .tc main_v7) = val_main_v7 (F := Ideal) x0 x2) (h_v3 : W (Proc.devRef .tc main_v3) = val_main_v3 (F := Ideal) x1) (h_v6 : W (Proc.devRef .tc main_v6) = val_main_v6 (F := Ideal) x1) (h_v32 : W (Proc.devRef .tc main_v32) = val_main_v32 (F := Ideal) x1) :
    StableHlo.after (cD (F := Ideal)) W (Proc.devRef .tc main_v45) = val_main_v45 (F := Ideal) x0 x1 x2 := by
  after_results_simp; rw [h_v7, h_v3, h_v6, h_v32]; rfl
theorem keepD_v3 : StableHlo.after (cD (F := Ideal)) W (Proc.devRef .tc main_v3) = W (Proc.devRef .tc main_v3) := by after_results_simp
theorem keepD_v6 : StableHlo.after (cD (F := Ideal)) W (Proc.devRef .tc main_v6) = W (Proc.devRef .tc main_v6) := by after_results_simp
theorem keepD_arg3 : StableHlo.after (cD (F := Ideal)) W (Proc.devRef .tc main_arg3) = W (Proc.devRef .tc main_arg3) := by after_results_simp
theorem keepD_arg4 : StableHlo.after (cD (F := Ideal)) W (Proc.devRef .tc main_arg4) = W (Proc.devRef .tc main_arg4) := by after_results_simp
theorem keepD_arg5 : StableHlo.after (cD (F := Ideal)) W (Proc.devRef .tc main_arg5) = W (Proc.devRef .tc main_arg5) := by after_results_simp

/-! ## The bias, the rectifier, the second dense product -/
theorem pieceE1 (h_v45 : W (Proc.devRef .tc main_v45) = val_main_v45 (F := Ideal) x0 x1 x2) (h_arg3 : W (Proc.devRef .tc main_arg3) = x3) :
    StableHlo.after (cE1 (F := Ideal)) W (Proc.devRef .tc main_v49) = val_main_v49 (F := Ideal) x0 x1 x2 x3 := by
  after_results_simp; rw [h_v45, h_arg3]; rfl
theorem keepE1_v3 : StableHlo.after (cE1 (F := Ideal)) W (Proc.devRef .tc main_v3) = W (Proc.devRef .tc main_v3) := by after_results_simp
theorem keepE1_v6 : StableHlo.after (cE1 (F := Ideal)) W (Proc.devRef .tc main_v6) = W (Proc.devRef .tc main_v6) := by after_results_simp
theorem keepE1_arg4 : StableHlo.after (cE1 (F := Ideal)) W (Proc.devRef .tc main_arg4) = W (Proc.devRef .tc main_arg4) := by after_results_simp
theorem keepE1_arg5 : StableHlo.after (cE1 (F := Ideal)) W (Proc.devRef .tc main_arg5) = W (Proc.devRef .tc main_arg5) := by after_results_simp
theorem pieceE2 (h_v49 : W (Proc.devRef .tc main_v49) = val_main_v49 (F := Ideal) x0 x1 x2 x3) (h_arg4 : W (Proc.devRef .tc main_arg4) = x4) :
    StableHlo.after (cE2 (F := Ideal)) W (Proc.devRef .tc main_v50) = val_main_v50 (F := Ideal) x0 x1 x2 x3 x4 := by
  after_results_simp; rw [h_v49, h_arg4]; rfl
theorem keepE2_v3 : StableHlo.after (cE2 (F := Ideal)) W (Proc.devRef .tc main_v3) = W (Proc.devRef .tc main_v3) := by after_results_simp
theorem keepE2_v6 : StableHlo.after (cE2 (F := Ideal)) W (Proc.devRef .tc main_v6) = W (Proc.devRef .tc main_v6) := by after_results_simp
theorem keepE2_arg5 : StableHlo.after (cE2 (F := Ideal)) W (Proc.devRef .tc main_arg5) = W (Proc.devRef .tc main_arg5) := by after_results_simp

/-! ## The second layer's edge weights -/
set_option maxHeartbeats 4000000 in
theorem pieceF1 (h_v6 : W (Proc.devRef .tc main_v6) = val_main_v6 (F := Ideal) x1) :
    StableHlo.after (cF1 (F := Ideal)) W (Proc.devRef .tc main_v60) = val_main_v60 (F := Ideal) x1 := by
  after_results_simp; rw [h_v6]; rfl
theorem keepF1_v3 : StableHlo.after (cF1 (F := Ideal)) W (Proc.devRef .tc main_v3) = W (Proc.devRef .tc main_v3) := by after_results_simp
theorem keepF1_v6 : StableHlo.after (cF1 (F := Ideal)) W (Proc.devRef .tc main_v6) = W (Proc.devRef .tc main_v6) := by after_results_simp
theorem keepF1_v50 : StableHlo.after (cF1 (F := Ideal)) W (Proc.devRef .tc main_v50) = W (Proc.devRef .tc main_v50) := by after_results_simp
theorem keepF1_arg5 : StableHlo.after (cF1 (F := Ideal)) W (Proc.devRef .tc main_arg5) = W (Proc.devRef .tc main_arg5) := by after_results_simp
set_option maxHeartbeats 4000000 in
theorem pieceF2 (h_v60 : W (Proc.devRef .tc main_v60) = val_main_v60 (F := Ideal) x1) (h_v3 : W (Proc.devRef .tc main_v3) = val_main_v3 (F := Ideal) x1) (h_v6 : W (Proc.devRef .tc main_v6) = val_main_v6 (F := Ideal) x1) :
    StableHlo.after (cF2 (F := Ideal)) W (Proc.devRef .tc main_v75) = val_main_v75 (F := Ideal) x1 := by
  after_results_simp; rw [h_v60, h_v3, h_v6]; rfl
theorem keepF2_v3 : StableHlo.after (cF2 (F := Ideal)) W (Proc.devRef .tc main_v3) = W (Proc.devRef .tc main_v3) := by after_results_simp
theorem keepF2_v6 : StableHlo.after (cF2 (F := Ideal)) W (Proc.devRef .tc main_v6) = W (Proc.devRef .tc main_v6) := by after_results_simp
theorem keepF2_v50 : StableHlo.after (cF2 (F := Ideal)) W (Proc.devRef .tc main_v50) = W (Proc.devRef .tc main_v50) := by after_results_simp
theorem keepF2_arg5 : StableHlo.after (cF2 (F := Ideal)) W (Proc.devRef .tc main_arg5) = W (Proc.devRef .tc main_arg5) := by after_results_simp

/-! ## The second propagation -/
set_option maxHeartbeats 4000000 in
theorem pieceG (h_v50 : W (Proc.devRef .tc main_v50) = val_main_v50 (F := Ideal) x0 x1 x2 x3 x4) (h_v3 : W (Proc.devRef .tc main_v3) = val_main_v3 (F := Ideal) x1) (h_v6 : W (Proc.devRef .tc main_v6) = val_main_v6 (F := Ideal) x1) (h_v75 : W (Proc.devRef .tc main_v75) = val_main_v75 (F := Ideal) x1) :
    StableHlo.after (cG (F := Ideal)) W (Proc.devRef .tc main_v88) = val_main_v88 (F := Ideal) x0 x1 x2 x3 x4 := by
  after_results_simp; rw [h_v50, h_v3, h_v6, h_v75]; rfl
theorem keepG_arg5 : StableHlo.after (cG (F := Ideal)) W (Proc.devRef .tc main_arg5) = W (Proc.devRef .tc main_arg5) := by after_results_simp

/-! ## The bias and the log-softmax -/
theorem pieceH1 (h_v88 : W (Proc.devRef .tc main_v88) = val_main_v88 (F := Ideal) x0 x1 x2 x3 x4) (h_arg5 : W (Proc.devRef .tc main_arg5) = x5) :
    StableHlo.after (cH1 (F := Ideal)) W (Proc.devRef .tc main_v91) = val_main_v91 (F := Ideal) x0 x1 x2 x3 x4 x5 := by
  after_results_simp; rw [h_v88, h_arg5]; rfl
theorem pieceH1_cst : StableHlo.after (cH1 (F := Ideal)) W (Proc.devRef .tc main_call3_cst) = val_main_call3_cst (F := Ideal) := by after_results_simp; rfl

/-- Contents at the stage's type are the buffer's contents, for the three buffers of the rows' maxima. -/
theorem ofBuf_v91 (v : (⟨S50000x128, .f32⟩ : BufTy).Contents (Elt Ideal)) : (TRef.of (T := ⟨S50000x128, .f32⟩) main_v91).ofBuf v = v := rfl
theorem ofBuf_cst (v : (⟨S_, .f32⟩ : BufTy).Contents (Elt Ideal)) : (TRef.of (T := ⟨S_, .f32⟩) main_call3_cst).ofBuf v = v := rfl
theorem toBuf_max (v : (⟨S50000, .f32⟩ : BufTy).Contents (Elt Ideal)) : (TRef.of (T := ⟨S50000, .f32⟩) main_call3_v0).toBuf v = v := rfl

theorem pieceH2 (h_v91 : W (Proc.devRef .tc main_v91) = val_main_v91 (F := Ideal) x0 x1 x2 x3 x4 x5) (h_call3_cst : W (Proc.devRef .tc main_call3_cst) = val_main_call3_cst (F := Ideal)) :
    StableHlo.after (cH2 (F := Ideal)) W (Proc.devRef .tc main_call3_v0) = val_main_call3_v0 (F := Ideal) x0 x1 x2 x3 x4 x5 := by
  after_results
  rw [h_v91, h_call3_cst, toBuf_max, ofBuf_v91, ofBuf_cst]
  rfl
theorem keepH2_v91 : StableHlo.after (cH2 (F := Ideal)) W (Proc.devRef .tc main_v91) = W (Proc.devRef .tc main_v91) := by after_results_simp
set_option maxHeartbeats 4000000 in
theorem pieceH3 (h_v91 : W (Proc.devRef .tc main_v91) = val_main_v91 (F := Ideal) x0 x1 x2 x3 x4 x5) (h_call3_v0 : W (Proc.devRef .tc main_call3_v0) = val_main_call3_v0 (F := Ideal) x0 x1 x2 x3 x4 x5) :
    StableHlo.after (cH3 (F := Ideal)) W (Proc.devRef .tc main_v92) = val_main_v92 (F := Ideal) x0 x1 x2 x3 x4 x5 := by
  after_results_simp; rw [h_v91, h_call3_v0]; rfl

end Pieces

end Cert.ReferenceIdeal.Fold

end
-- ==== Proof.RefValue.lean ====
/-
  The reference program's run with its result named: every fair execution ends with the result's buffer at the last
  stage of the six argument arrays, and with the arguments as launched. The stage comes from chaining the pieces of
  the operation list from the launch memory; an argument's buffer is written by no operation.
-/
import proofs.«105155_j75814762709760_2_alg».proof.Proof.RefFold

set_option maxRecDepth 16384

noncomputable section

namespace Cert.ReferenceIdeal.Fold

open Cert.ReferenceIdeal Cert.ReferenceIdeal.Gen Idealize.ShloMosaic Idealize.ShloMosaic.TcCoe Idealize.SL.Sem Idealize.ShloMosaic.StableHlo
open Cert.ReferenceIdeal.ReadP

/-! ## No operation writes an argument -/

section Kept
variable (W : Valuation τ sig (Elt Ideal))
set_option maxHeartbeats 4000000 in
theorem kept_arg0 : StableHlo.after (ValueP.ops (F := Ideal)) W (Proc.devRef .tc main_arg0) = W (Proc.devRef .tc main_arg0) := by after_results_simp
set_option maxHeartbeats 4000000 in
theorem kept_arg1 : StableHlo.after (ValueP.ops (F := Ideal)) W (Proc.devRef .tc main_arg1) = W (Proc.devRef .tc main_arg1) := by after_results_simp
set_option maxHeartbeats 4000000 in
theorem kept_arg2 : StableHlo.after (ValueP.ops (F := Ideal)) W (Proc.devRef .tc main_arg2) = W (Proc.devRef .tc main_arg2) := by after_results_simp
set_option maxHeartbeats 4000000 in
theorem kept_arg3 : StableHlo.after (ValueP.ops (F := Ideal)) W (Proc.devRef .tc main_arg3) = W (Proc.devRef .tc main_arg3) := by after_results_simp
set_option maxHeartbeats 4000000 in
theorem kept_arg4 : StableHlo.after (ValueP.ops (F := Ideal)) W (Proc.devRef .tc main_arg4) = W (Proc.devRef .tc main_arg4) := by after_results_simp
set_option maxHeartbeats 4000000 in
theorem kept_arg5 : StableHlo.after (ValueP.ops (F := Ideal)) W (Proc.devRef .tc main_arg5) = W (Proc.devRef .tc main_arg5) := by after_results_simp
end Kept

variable (m : (ℓ : Loc nD τ sig) → Buf (Elt Ideal) ℓ) (ρ : Dev nD → PrngReg)

/-! ## The result's buffer after the whole line -/

theorem result_at (c : Dev nD) :
    StableHlo.after (ValueP.ops (F := Ideal)) (launchContents m c) (Proc.devRef .tc main_v92)
      = val_main_v92 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  rw [after_ops]
  have u0_arg0 : launchContents m c (Proc.devRef .tc main_arg0) = m ((c.tc : Thread nD τ).loc main_arg0) := rfl
  have u0_arg1 : launchContents m c (Proc.devRef .tc main_arg1) = m ((c.tc : Thread nD τ).loc main_arg1) := rfl
  have u0_arg2 : launchContents m c (Proc.devRef .tc main_arg2) = m ((c.tc : Thread nD τ).loc main_arg2) := rfl
  have u0_arg3 : launchContents m c (Proc.devRef .tc main_arg3) = m ((c.tc : Thread nD τ).loc main_arg3) := rfl
  have u0_arg4 : launchContents m c (Proc.devRef .tc main_arg4) = m ((c.tc : Thread nD τ).loc main_arg4) := rfl
  have u0_arg5 : launchContents m c (Proc.devRef .tc main_arg5) = m ((c.tc : Thread nD τ).loc main_arg5) := rfl
  -- after piece A
  have uA_v3 := pieceA_src (launchContents m c) u0_arg1
  have uA_v6 := pieceA_dst (launchContents m c) u0_arg1
  have uA_arg0 := (keepA_arg0 (launchContents m c)).trans u0_arg0
  have uA_arg2 := (keepA_arg2 (launchContents m c)).trans u0_arg2
  have uA_arg3 := (keepA_arg3 (launchContents m c)).trans u0_arg3
  have uA_arg4 := (keepA_arg4 (launchContents m c)).trans u0_arg4
  have uA_arg5 := (keepA_arg5 (launchContents m c)).trans u0_arg5
  -- after piece B
  have uB_v7 := pieceB (StableHlo.after (cA (F := Ideal)) (launchContents m c)) uA_arg0 uA_arg2
  have uB_v3 := (keepB_v3 (StableHlo.after (cA (F := Ideal)) (launchContents m c))).trans uA_v3
  have uB_v6 := (keepB_v6 (StableHlo.after (cA (F := Ideal)) (launchContents m c))).trans uA_v6
  have uB_arg3 := (keepB_arg3 (StableHlo.after (cA (F := Ideal)) (launchContents m c))).trans uA_arg3
  have uB_arg4 := (keepB_arg4 (StableHlo.after (cA (F := Ideal)) (launchContents m c))).trans uA_arg4
  have uB_arg5 := (keepB_arg5 (StableHlo.after (cA (F := Ideal)) (launchContents m c))).trans uA_arg5
  -- after piece C1
  have uC1_v17 := pieceC1 (StableHlo.after (cB (F := Ideal)) (StableHlo.after (cA (F := Ideal)) (launchContents m c))) uB_v6
  have uC1_v3 := (keepC1_v3 (StableHlo.after (cB (F := Ideal)) (StableHlo.after (cA (F := Ideal)) (launchContents m c)))).trans uB_v3
  have uC1_v6 := (keepC1_v6 (StableHlo.after (cB (F := Ideal)) (StableHlo.after (cA (F := Ideal)) (launchContents m c)))).trans uB_v6
  have uC1_v7 := (keepC1_v7 (StableHlo.after (cB (F := Ideal)) (StableHlo.after (cA (F := Ideal)) (launchContents m c)))).trans uB_v7
  have uC1_arg3 := (keepC1_arg3 (StableHlo.after (cB (F := Ideal)) (StableHlo.after (cA (F := Ideal)) (launchContents m c)))).trans uB_arg3
  have uC1_arg4 := (keepC1_arg4 (StableHlo.after (cB (F := Ideal)) (StableHlo.after (cA (F := Ideal)) (launchContents m c)))).trans uB_arg4
  have uC1_arg5 := (keepC1_arg5 (StableHlo.after (cB (F := Ideal)) (StableHlo.after (cA (F := Ideal)) (launchContents m c)))).trans uB_arg5
  -- after piece C2
  have uC2_v32 := pieceC2 (StableHlo.after (cC1 (F := Ideal)) (StableHlo.after (cB (F := Ideal)) (StableHlo.after (cA (F := Ideal)) (launchContents m c)))) uC1_v17 uC1_v3 uC1_v6
  have uC2_v3 := (keepC2_v3 (StableHlo.after (cC1 (F := Ideal)) (StableHlo.after (cB (F := Ideal)) (StableHlo.after (cA (F := Ideal)) (launchContents m c))))).trans uC1_v3
  have uC2_v6 := (keepC2_v6 (StableHlo.after (cC1 (F := Ideal)) (StableHlo.after (cB (F := Ideal)) (StableHlo.after (cA (F := Ideal)) (launchContents m c))))).trans uC1_v6
  have uC2_v7 := (keepC2_v7 (StableHlo.after (cC1 (F := Ideal)) (StableHlo.after (cB (F := Ideal)) (StableHlo.after (cA (F := Ideal)) (launchContents m c))))).trans uC1_v7
  have uC2_arg3 := (keepC2_arg3 (StableHlo.after (cC1 (F := Ideal)) (StableHlo.after (cB (F := Ideal)) (StableHlo.after (cA (F := Ideal)) (launchContents m c))))).trans uC1_arg3
  have uC2_arg4 := (keepC2_arg4 (StableHlo.after (cC1 (F := Ideal)) (StableHlo.after (cB (F := Ideal)) (StableHlo.after (cA (F := Ideal)) (launchContents m c))))).trans uC1_arg4
  have uC2_arg5 := (keepC2_arg5 (StableHlo.after (cC1 (F := Ideal)) (StableHlo.after (cB (F := Ideal)) (StableHlo.after (cA (F := Ideal)) (launchContents m c))))).trans uC1_arg5
  -- after piece D
  have uD_v45 := pieceD (StableHlo.after (cC2 (F := Ideal)) (StableHlo.after (cC1 (F := Ideal)) (StableHlo.after (cB (F := Ideal)) (StableHlo.after (cA (F := Ideal)) (launchContents m c))))) uC2_v7 uC2_v3 uC2_v6 uC2_v32
  have uD_v3 := (keepD_v3 (StableHlo.after (cC2 (F := Ideal)) (StableHlo.after (cC1 (F := Ideal)) (StableHlo.after (cB (F := Ideal)) (StableHlo.after (cA (F := Ideal)) (launchContents m c)))))).trans uC2_v3
  have uD_v6 := (keepD_v6 (StableHlo.after (cC2 (F := Ideal)) (StableHlo.after (cC1 (F := Ideal)) (StableHlo.after (cB (F := Ideal)) (StableHlo.after (cA (F := Ideal)) (launchContents m c)))))).trans uC2_v6
  have uD_arg3 := (keepD_arg3 (StableHlo.after (cC2 (F := Ideal)) (StableHlo.after (cC1 (F := Ideal)) (StableHlo.after (cB (F := Ideal)) (StableHlo.after (cA (F := Ideal)) (launchContents m c)))))).trans uC2_arg3
  have uD_arg4 := (keepD_arg4 (StableHlo.after (cC2 (F := Ideal)) (StableHlo.after (cC1 (F := Ideal)) (StableHlo.after (cB (F := Ideal)) (StableHlo.after (cA (F := Ideal)) (launchContents m c)))))).trans uC2_arg4
  have uD_arg5 := (keepD_arg5 (StableHlo.after (cC2 (F := Ideal)) (StableHlo.after (cC1 (F := Ideal)) (StableHlo.after (cB (F := Ideal)) (StableHlo.after (cA (F := Ideal)) (launchContents m c)))))).trans uC2_arg5
  -- after piece E1
  have uE1_v49 := pieceE1 (StableHlo.after (cD (F := Ideal)) (StableHlo.after (cC2 (F := Ideal)) (StableHlo.after (cC1 (F := Ideal)) (StableHlo.after (cB (F := Ideal)) (StableHlo.after (cA (F := Ideal)) (launchContents m c)))))) uD_v45 uD_arg3
  have uE1_v3 := (keepE1_v3 (StableHlo.after (cD (F := Ideal)) (StableHlo.after (cC2 (F := Ideal)) (StableHlo.after (cC1 (F := Ideal)) (StableHlo.after (cB (F := Ideal)) (StableHlo.after (cA (F := Ideal)) (launchContents m c))))))).trans uD_v3
  have uE1_v6 := (keepE1_v6 (StableHlo.after (cD (F := Ideal)) (StableHlo.after (cC2 (F := Ideal)) (StableHlo.after (cC1 (F := Ideal)) (StableHlo.after (cB (F := Ideal)) (StableHlo.after (cA (F := Ideal)) (launchContents m c))))))).trans uD_v6
  have uE1_arg4 := (keepE1_arg4 (StableHlo.after (cD (F := Ideal)) (StableHlo.after (cC2 (F := Ideal)) (StableHlo.after (cC1 (F := Ideal)) (StableHlo.after (cB (F := Ideal)) (StableHlo.after (cA (F := Ideal)) (launchContents m c))))))).trans uD_arg4
  have uE1_arg5 := (keepE1_arg5 (StableHlo.after (cD (F := Ideal)) (StableHlo.after (cC2 (F := Ideal)) (StableHlo.after (cC1 (F := Ideal)) (StableHlo.after (cB (F := Ideal)) (StableHlo.after (cA (F := Ideal)) (launchContents m c))))))).trans uD_arg5
  -- after piece E2
  have uE2_v50 := pieceE2 (StableHlo.after (cE1 (F := Ideal)) (StableHlo.after (cD (F := Ideal)) (StableHlo.after (cC2 (F := Ideal)) (StableHlo.after (cC1 (F := Ideal)) (StableHlo.after (cB (F := Ideal)) (StableHlo.after (cA (F := Ideal)) (launchContents m c))))))) uE1_v49 uE1_arg4
  have uE2_v3 := (keepE2_v3 (StableHlo.after (cE1 (F := Ideal)) (StableHlo.after (cD (F := Ideal)) (StableHlo.after (cC2 (F := Ideal)) (StableHlo.after (cC1 (F := Ideal)) (StableHlo.after (cB (F := Ideal)) (StableHlo.after (cA (F := Ideal)) (launchContents m c)))))))).trans uE1_v3
  have uE2_v6 := (keepE2_v6 (StableHlo.after (cE1 (F := Ideal)) (StableHlo.after (cD (F := Ideal)) (StableHlo.after (cC2 (F := Ideal)) (StableHlo.after (cC1 (F := Ideal)) (StableHlo.after (cB (F := Ideal)) (StableHlo.after (cA (F := Ideal)) (launchContents m c)))))))).trans uE1_v6
  have uE2_arg5 := (keepE2_arg5 (StableHlo.after (cE1 (F := Ideal)) (StableHlo.after (cD (F := Ideal)) (StableHlo.after (cC2 (F := Ideal)) (StableHlo.after (cC1 (F := Ideal)) (StableHlo.after (cB (F := Ideal)) (StableHlo.after (cA (F := Ideal)) (launchContents m c)))))))).trans uE1_arg5
  -- after piece F1
  have uF1_v60 := pieceF1 (StableHlo.after (cE2 (F := Ideal)) (StableHlo.after (cE1 (F := Ideal)) (StableHlo.after (cD (F := Ideal)) (StableHlo.after (cC2 (F := Ideal)) (StableHlo.after (cC1 (F := Ideal)) (StableHlo.after (cB (F := Ideal)) (StableHlo.after (cA (F := Ideal)) (launchContents m c)))))))) uE2_v6
  have uF1_v3 := (keepF1_v3 (StableHlo.after (cE2 (F := Ideal)) (StableHlo.after (cE1 (F := Ideal)) (StableHlo.after (cD (F := Ideal)) (StableHlo.after (cC2 (F := Ideal)) (StableHlo.after (cC1 (F := Ideal)) (StableHlo.after (cB (F := Ideal)) (StableHlo.after (cA (F := Ideal)) (launchContents m c))))))))).trans uE2_v3
  have uF1_v6 := (keepF1_v6 (StableHlo.after (cE2 (F := Ideal)) (StableHlo.after (cE1 (F := Ideal)) (StableHlo.after (cD (F := Ideal)) (StableHlo.after (cC2 (F := Ideal)) (StableHlo.after (cC1 (F := Ideal)) (StableHlo.after (cB (F := Ideal)) (StableHlo.after (cA (F := Ideal)) (launchContents m c))))))))).trans uE2_v6
  have uF1_v50 := (keepF1_v50 (StableHlo.after (cE2 (F := Ideal)) (StableHlo.after (cE1 (F := Ideal)) (StableHlo.after (cD (F := Ideal)) (StableHlo.after (cC2 (F := Ideal)) (StableHlo.after (cC1 (F := Ideal)) (StableHlo.after (cB (F := Ideal)) (StableHlo.after (cA (F := Ideal)) (launchContents m c))))))))).trans uE2_v50
  have uF1_arg5 := (keepF1_arg5 (StableHlo.after (cE2 (F := Ideal)) (StableHlo.after (cE1 (F := Ideal)) (StableHlo.after (cD (F := Ideal)) (StableHlo.after (cC2 (F := Ideal)) (StableHlo.after (cC1 (F := Ideal)) (StableHlo.after (cB (F := Ideal)) (StableHlo.after (cA (F := Ideal)) (launchContents m c))))))))).trans uE2_arg5
  -- after piece F2
  have uF2_v75 := pieceF2 (StableHlo.after (cF1 (F := Ideal)) (StableHlo.after (cE2 (F := Ideal)) (StableHlo.after (cE1 (F := Ideal)) (StableHlo.after (cD (F := Ideal)) (StableHlo.after (cC2 (F := Ideal)) (StableHlo.after (cC1 (F := Ideal)) (StableHlo.after (cB (F := Ideal)) (StableHlo.after (cA (F := Ideal)) (launchContents m c))))))))) uF1_v60 uF1_v3 uF1_v6
  have uF2_v3 := (keepF2_v3 (StableHlo.after (cF1 (F := Ideal)) (StableHlo.after (cE2 (F := Ideal)) (StableHlo.after (cE1 (F := Ideal)) (StableHlo.after (cD (F := Ideal)) (StableHlo.after (cC2 (F := Ideal)) (StableHlo.after (cC1 (F := Ideal)) (StableHlo.after (cB (F := Ideal)) (StableHlo.after (cA (F := Ideal)) (launchContents m c)))))))))).trans uF1_v3
  have uF2_v6 := (keepF2_v6 (StableHlo.after (cF1 (F := Ideal)) (StableHlo.after (cE2 (F := Ideal)) (StableHlo.after (cE1 (F := Ideal)) (StableHlo.after (cD (F := Ideal)) (StableHlo.after (cC2 (F := Ideal)) (StableHlo.after (cC1 (F := Ideal)) (StableHlo.after (cB (F := Ideal)) (StableHlo.after (cA (F := Ideal)) (launchContents m c)))))))))).trans uF1_v6
  have uF2_v50 := (keepF2_v50 (StableHlo.after (cF1 (F := Ideal)) (StableHlo.after (cE2 (F := Ideal)) (StableHlo.after (cE1 (F := Ideal)) (StableHlo.after (cD (F := Ideal)) (StableHlo.after (cC2 (F := Ideal)) (StableHlo.after (cC1 (F := Ideal)) (StableHlo.after (cB (F := Ideal)) (StableHlo.after (cA (F := Ideal)) (launchContents m c)))))))))).trans uF1_v50
  have uF2_arg5 := (keepF2_arg5 (StableHlo.after (cF1 (F := Ideal)) (StableHlo.after (cE2 (F := Ideal)) (StableHlo.after (cE1 (F := Ideal)) (StableHlo.after (cD (F := Ideal)) (StableHlo.after (cC2 (F := Ideal)) (StableHlo.after (cC1 (F := Ideal)) (StableHlo.after (cB (F := Ideal)) (StableHlo.after (cA (F := Ideal)) (launchContents m c)))))))))).trans uF1_arg5
  -- after piece G
  have uG_v88 := pieceG (StableHlo.after (cF2 (F := Ideal)) (StableHlo.after (cF1 (F := Ideal)) (StableHlo.after (cE2 (F := Ideal)) (StableHlo.after (cE1 (F := Ideal)) (StableHlo.after (cD (F := Ideal)) (StableHlo.after (cC2 (F := Ideal)) (StableHlo.after (cC1 (F := Ideal)) (StableHlo.after (cB (F := Ideal)) (StableHlo.after (cA (F := Ideal)) (launchContents m c)))))))))) uF2_v50 uF2_v3 uF2_v6 uF2_v75
  have uG_arg5 := (keepG_arg5 (StableHlo.after (cF2 (F := Ideal)) (StableHlo.after (cF1 (F := Ideal)) (StableHlo.after (cE2 (F := Ideal)) (StableHlo.after (cE1 (F := Ideal)) (StableHlo.after (cD (F := Ideal)) (StableHlo.after (cC2 (F := Ideal)) (StableHlo.after (cC1 (F := Ideal)) (StableHlo.after (cB (F := Ideal)) (StableHlo.after (cA (F := Ideal)) (launchContents m c))))))))))).trans uF2_arg5
  -- after piece H1
  have uH1_v91 := pieceH1 (StableHlo.after (cG (F := Ideal)) (StableHlo.after (cF2 (F := Ideal)) (StableHlo.after (cF1 (F := Ideal)) (StableHlo.after (cE2 (F := Ideal)) (StableHlo.after (cE1 (F := Ideal)) (StableHlo.after (cD (F := Ideal)) (StableHlo.after (cC2 (F := Ideal)) (StableHlo.after (cC1 (F := Ideal)) (StableHlo.after (cB (F := Ideal)) (StableHlo.after (cA (F := Ideal)) (launchContents m c))))))))))) uG_v88 uG_arg5
  have uH1_call3_cst := pieceH1_cst (StableHlo.after (cG (F := Ideal)) (StableHlo.after (cF2 (F := Ideal)) (StableHlo.after (cF1 (F := Ideal)) (StableHlo.after (cE2 (F := Ideal)) (StableHlo.after (cE1 (F := Ideal)) (StableHlo.after (cD (F := Ideal)) (StableHlo.after (cC2 (F := Ideal)) (StableHlo.after (cC1 (F := Ideal)) (StableHlo.after (cB (F := Ideal)) (StableHlo.after (cA (F := Ideal)) (launchContents m c)))))))))))
  -- after piece H2
  have uH2_call3_v0 := pieceH2 (StableHlo.after (cH1 (F := Ideal)) (StableHlo.after (cG (F := Ideal)) (StableHlo.after (cF2 (F := Ideal)) (StableHlo.after (cF1 (F := Ideal)) (StableHlo.after (cE2 (F := Ideal)) (StableHlo.after (cE1 (F := Ideal)) (StableHlo.after (cD (F := Ideal)) (StableHlo.after (cC2 (F := Ideal)) (StableHlo.after (cC1 (F := Ideal)) (StableHlo.after (cB (F := Ideal)) (StableHlo.after (cA (F := Ideal)) (launchContents m c)))))))))))) uH1_v91 uH1_call3_cst
  have uH2_v91 := (keepH2_v91 (StableHlo.after (cH1 (F := Ideal)) (StableHlo.after (cG (F := Ideal)) (StableHlo.after (cF2 (F := Ideal)) (StableHlo.after (cF1 (F := Ideal)) (StableHlo.after (cE2 (F := Ideal)) (StableHlo.after (cE1 (F := Ideal)) (StableHlo.after (cD (F := Ideal)) (StableHlo.after (cC2 (F := Ideal)) (StableHlo.after (cC1 (F := Ideal)) (StableHlo.after (cB (F := Ideal)) (StableHlo.after (cA (F := Ideal)) (launchContents m c))))))))))))).trans uH1_v91
  exact pieceH3 (StableHlo.after (cH2 (F := Ideal)) (StableHlo.after (cH1 (F := Ideal)) (StableHlo.after (cG (F := Ideal)) (StableHlo.after (cF2 (F := Ideal)) (StableHlo.after (cF1 (F := Ideal)) (StableHlo.after (cE2 (F := Ideal)) (StableHlo.after (cE1 (F := Ideal)) (StableHlo.after (cD (F := Ideal)) (StableHlo.after (cC2 (F := Ideal)) (StableHlo.after (cC1 (F := Ideal)) (StableHlo.after (cB (F := Ideal)) (StableHlo.after (cA (F := Ideal)) (launchContents m c))))))))))))) uH2_v91 uH2_call3_v0

/-! ## The run -/

theorem run : θ_run defs (onTc (τ := τ) (main (F := Ideal))) ⟨m, fun _ => 0, ρ⟩ fun r => ∀ c : Dev nD,
      r.2.mem ((c.tc : Thread nD τ).loc main_v92) = val_main_v92 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v92).trans (result_at m c),
      (h c main_arg0).trans (kept_arg0 (launchContents m c)),
      (h c main_arg1).trans (kept_arg1 (launchContents m c)),
      (h c main_arg2).trans (kept_arg2 (launchContents m c)),
      (h c main_arg3).trans (kept_arg3 (launchContents m c)),
      (h c main_arg4).trans (kept_arg4 (launchContents m c)),
      (h c main_arg5).trans (kept_arg5 (launchContents m c))⟩)
    (run_seq ValueP.scopedRefs_eq ValueP.scopedSems_eq defs main (fun _ => ValueP.ops) ValueP.main_eq (fun _ => ValueP.ops_sub) m ρ)

end Cert.ReferenceIdeal.Fold

end
-- ==== Proof.Bridge.lean ====
/-
  The reference's result is the same composition as the kernel program's.

  The reference spells the graph's pieces — the endpoint lists with their self-loops, the degrees, their inverse
  square roots, the edges' weights, the propagation step — with the very operations of the kernel program's host
  stretches, over its own copies of the shape records; so its stages ARE the kernel side's functions (each equation
  below compares two spellings of one term). It computes the edges' weights twice, once per layer; both are the
  one function of the edge list. With the three dense stages read on both sides as the same functions (the two matrix
  products and the log-softmax), the reference's last stage is
      logSoftmax (propagate (reluProduct (propagate (product x w₁)) b₁ w₂)) b₂ ,
  the composition the kernel program's result array holds.
-/
import proofs.«105155_j75814762709760_2_alg».proof.Proof.Fold
import proofs.«105155_j75814762709760_2_alg».proof.Proof.RefRead
import proofs.«105155_j75814762709760_2_alg».proof.Proof.Products
import proofs.«105155_j75814762709760_2_alg».proof.Proof.LogSoftmax
import Idealize.ShloMosaic.PureOps.Ideal

set_option maxRecDepth 16384

noncomputable section

namespace Cert.Bridge

open Idealize.ShloMosaic

variable (x0 : (⟨Cert.ReferenceIdeal.S50000x128, .f32⟩ : BufTy).Contents (Elt Ideal)) (x1 : (⟨Cert.ReferenceIdeal.S2x800000, .i32⟩ : BufTy).Contents (Elt Ideal)) (x2 : (⟨Cert.ReferenceIdeal.S128x128, .f32⟩ : BufTy).Contents (Elt Ideal))
  (x3 : (⟨Cert.ReferenceIdeal.S128, .f32⟩ : BufTy).Contents (Elt Ideal)) (x4 : (⟨Cert.ReferenceIdeal.S128x128, .f32⟩ : BufTy).Contents (Elt Ideal)) (x5 : (⟨Cert.ReferenceIdeal.S128, .f32⟩ : BufTy).Contents (Elt Ideal))

/-- The sources with their self-loops. -/
theorem sources_eq : Cert.ReferenceIdeal.ReadP.val_main_v3 (F := Ideal) x1 = Cert.KernelIdeal.Fold.sources x1 := rfl
/-- The targets with their self-loops. -/
theorem targets_eq : Cert.ReferenceIdeal.ReadP.val_main_v6 (F := Ideal) x1 = Cert.KernelIdeal.Fold.targets x1 := rfl
/-- The first layer's edge weights. -/
theorem weight_eq : Cert.ReferenceIdeal.ReadP.val_main_v32 (F := Ideal) x1 = Cert.KernelIdeal.Fold.edgeWeight x1 := rfl
/-- The second layer's edge weights: the same function of the edge list. -/
theorem weight2_eq : Cert.ReferenceIdeal.ReadP.val_main_v75 (F := Ideal) x1 = Cert.KernelIdeal.Fold.edgeWeight x1 := rfl
/-- The first propagation, of the first dense product. -/
theorem propagate1_eq : Cert.ReferenceIdeal.ReadP.val_main_v45 (F := Ideal) x0 x1 x2
    = Cert.KernelIdeal.Fold.propagate x1 (Cert.ReferenceIdeal.ReadP.val_main_v7 (F := Ideal) x0 x2) := rfl
/-- The second propagation, of the second dense product. -/
theorem propagate2_eq : Cert.ReferenceIdeal.ReadP.val_main_v88 (F := Ideal) x0 x1 x2 x3 x4
    = Cert.KernelIdeal.Fold.propagate x1 (Cert.ReferenceIdeal.ReadP.val_main_v50 (F := Ideal) x0 x1 x2 x3 x4) := rfl

/-- The reference's last stage, as the composition of the dense stages and the propagation. -/
theorem reference_eq : Cert.ReferenceIdeal.ReadP.val_main_v92 (F := Ideal) x0 x1 x2 x3 x4 x5
    = GraphConv.logSoftmax (Cert.KernelIdeal.Fold.propagate x1
        (GraphConv.reluProduct (Cert.KernelIdeal.Fold.propagate x1 (GraphConv.product x0 x2)) x3 x4)) x5 := by
  rw [Cert.ReferenceIdeal.Layers.logSoftmax_stage, propagate2_eq, Cert.ReferenceIdeal.Layers.reluProduct_stage, propagate1_eq,
    Cert.ReferenceIdeal.Layers.product_stage]

end Cert.Bridge

end
-- ==== Proof.lean ====
/-
  A two-layer graph convolution with a log-softmax, computed two ways, is one function of its six argument arrays on
  the extended reals.

  With e the edge list (self-loops added), `propagate e` the step "gather the rows at the sources, scale each by its
  edge's weight 1/√(deg src · deg dst), add them up at the targets", and the three dense stages
      product x w        (p, q) ↦ Σ_k x(p, k) · w(k, q),
      reluProduct a b w  (p, q) ↦ Σ_k max(a(p, k) + b(k), 0) · w(k, q),
      logSoftmax a b     (p, q) ↦ z(p, q) − log Σ_k exp z(p, k),   z = (a + b) − its row's maximum,
  both programs end with
      logSoftmax (propagate e (reluProduct (propagate e (product x w₁)) b₁ w₂)) b₂ .
  The kernel program computes the three dense stages in three pipelined launches, ten row blocks of 5000 each, and
  the propagation in host stretches between them; the reference computes everything in one straight line and the
  edges' weights twice. No law of arithmetic beyond the rearrangement of the dense stages' own sums is used, so the
  finiteness of the inputs is never needed: the equality holds at every extended-real input.

  The frames of the two kernel programs are the generated ones; the reference's is its run with the result dropped;
  the idealization rewrote nothing, so there is nothing to preserve.
-/
import proofs.«105155_j75814762709760_2_alg».proof.Defs
import proofs.«105155_j75814762709760_2_alg».proof.Proof.Gen.Kernel
import proofs.«105155_j75814762709760_2_alg».proof.Proof.Gen.Kernel.Skeleton
import proofs.«105155_j75814762709760_2_alg».proof.Proof.Gen.Kernel.Launch
import proofs.«105155_j75814762709760_2_alg».proof.Proof.Gen.Kernel.Points
import proofs.«105155_j75814762709760_2_alg».proof.Proof.Gen.Kernel.Frame
import proofs.«105155_j75814762709760_2_alg».proof.Proof.Gen.KernelIdeal
import proofs.«105155_j75814762709760_2_alg».proof.Proof.Gen.KernelIdeal.Skeleton
import proofs.«105155_j75814762709760_2_alg».proof.Proof.Gen.KernelIdeal.Launch
import proofs.«105155_j75814762709760_2_alg».proof.Proof.Gen.KernelIdeal.Points
import proofs.«105155_j75814762709760_2_alg».proof.Proof.Gen.KernelIdeal.Frame
import proofs.«105155_j75814762709760_2_alg».proof.Proof.Gen.ReferenceIdeal
import proofs.«105155_j75814762709760_2_alg».proof.Proof.Gen.Pre_finite_inputs
import proofs.«105155_j75814762709760_2_alg».proof.Proof.KernelRun
import proofs.«105155_j75814762709760_2_alg».proof.Proof.Fold
import proofs.«105155_j75814762709760_2_alg».proof.Proof.Products
import proofs.«105155_j75814762709760_2_alg».proof.Proof.LogSoftmax
import proofs.«105155_j75814762709760_2_alg».proof.Proof.RefValue
import proofs.«105155_j75814762709760_2_alg».proof.Proof.Bridge
import Idealize.ShloMosaic.Adequacy
import Idealize.ShloMosaic.Init

noncomputable section

namespace Cert.Proof

open Idealize.ShloMosaic Idealize.SL.Sem

/-- The word-level kernel program runs and leaves its arguments alone. -/
theorem frame_kernel : Cert.frame_Kernel := fun m ρ _ => Cert.Kernel.Gen.frame m ρ

/-- So does its reading at the exact values. -/
theorem frame_kernelIdeal : Cert.frame_KernelIdeal := fun m ρ _ => Cert.KernelIdeal.Gen.frame m ρ

/-- The reference runs and leaves its arguments alone: its run, the result dropped. -/
theorem frame_reference : Cert.frame_ReferenceIdeal := fun m ρ _ =>
  (θ_run Cert.ReferenceIdeal.defs _ _).mono (fun _ h c => (h c).2) (Cert.ReferenceIdeal.Fold.run m ρ)

/-- The idealization rewrote no operation. -/
theorem preserves : Cert.preserves_Kernel_KernelIdeal := trivial

/-- From memories that agree on the arguments both programs end with the same composition of the dense stages and the
    propagation step, of the same arrays. -/
theorem algebraic : Cert.algebraic_KernelIdeal_ReferenceIdeal := by
  intro m ρ m' ρ' _ hagree
  refine ⟨fun c => GraphConv.logSoftmax (Cert.KernelIdeal.Fold.propagate (m ((c.tc : Thread Cert.KernelIdeal.nD Cert.KernelIdeal.τ).loc Cert.KernelIdeal.main_arg1))
        (GraphConv.reluProduct (Cert.KernelIdeal.Fold.propagate (m ((c.tc : Thread Cert.KernelIdeal.nD Cert.KernelIdeal.τ).loc Cert.KernelIdeal.main_arg1)) (GraphConv.product (m ((c.tc : Thread Cert.KernelIdeal.nD Cert.KernelIdeal.τ).loc Cert.KernelIdeal.main_arg0)) (m ((c.tc : Thread Cert.KernelIdeal.nD Cert.KernelIdeal.τ).loc Cert.KernelIdeal.main_arg2))))
          (m ((c.tc : Thread Cert.KernelIdeal.nD Cert.KernelIdeal.τ).loc Cert.KernelIdeal.main_arg3)) (m ((c.tc : Thread Cert.KernelIdeal.nD Cert.KernelIdeal.τ).loc Cert.KernelIdeal.main_arg4)))) (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.Fold.result_eq m ρ GraphConv.product GraphConv.reluProduct GraphConv.logSoftmax
          (fun V c => Cert.KernelIdeal.Layers.product_array V c)
          (fun V c b hb => Cert.KernelIdeal.Layers.reluProduct_array V c b hb)
          (fun V c b hb => Cert.KernelIdeal.Layers.logSoftmax_array V c b hb) c), (h c).2⟩)
      (Cert.KernelIdeal.Run.run_result (F := Ideal) m ρ)
  · refine (θ_run Cert.ReferenceIdeal.defs _ _).mono (fun r h c => ⟨(h c).1.trans ?_, (h c).2⟩) (Cert.ReferenceIdeal.Fold.run m' ρ')
    refine (Cert.Bridge.reference_eq _ _ _ _ _ _).trans ?_
    rw [(hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
